-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v52)) (v2 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_v60) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S25000000 : Shape := ⟨1, ![25000000]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S25000000 : S_.BroadcastsInDim S25000000 (![] : Fin 0 → Fin S25000000.rank)
  reducesTo_S25000000_S_d0 : S25000000.ReducesTo [0] S_

variable [Facts]

def fn {F : FTy → Type} [FloatOps F] (main_arg0 : FVec F S1000000 .f32) (main_arg1 : FVec F S25000000 .f32) (main_arg2 : FVec F S25000000 .f32) (main_arg3 : IVec S25000000 32) (main_arg4 : IVec S25000000 32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S25000000 .f32 := Host.absf main_arg1
  let main_cst_0 : FVec F S_ .f32 := constant S_ .f32 0x7F800000#32
  let main_v5 : FVec F S25000000 .f32 := broadcastInDim S25000000 ![] bcast_S_S25000000 main_cst_0
  let main_v6 : IVec S25000000 1 := cmpf .olt main_v4 main_v5
  let main_c_1 : IVec S_ 1 := constantI S_ 1 1#1
  let main_v7 : IVec S_ 1 := (fun x v => Host.reduce IntOp.andi x v reducesTo_S25000000_S_d0 h_S_) main_v6 main_c_1
  let main_v8 : IVec S_ 1 := andi main_v3 main_v7
  let main_v9 : FVec F S25000000 .f32 := Host.absf main_arg2
  let main_cst_2 : FVec F S_ .f32 := constant S_ .f32 0x7F800000#32
  let main_v10 : FVec F S25000000 .f32 := broadcastInDim S25000000 ![] bcast_S_S25000000 main_cst_2
  let main_v11 : IVec S25000000 1 := cmpf .olt main_v9 main_v10
  let main_c_3 : IVec S_ 1 := constantI S_ 1 1#1
  let main_v12 : IVec S_ 1 := (fun x v => Host.reduce IntOp.andi x v reducesTo_S25000000_S_d0 h_S_) main_v11 main_c_3
  let main_v13 : IVec S_ 1 := andi main_v8 main_v12
  main_v13
-- ==== Kernel.lean ====
abbrev S1000000 : Shape := ⟨1, ![1000000]⟩
abbrev S25000000 : Shape := ⟨1, ![25000000]⟩
abbrev S_ : Shape := ⟨0, ![]⟩
abbrev S1048576 : Shape := ⟨1, ![1048576]⟩
abbrev S8192x128 : Shape := ⟨2, ![8192, 128]⟩
abbrev S2048x128 : Shape := ⟨2, ![2048, 128]⟩
abbrev S25165824 : Shape := ⟨1, ![25165824]⟩
abbrev S196608x128 : Shape := ⟨2, ![196608, 128]⟩
abbrev S25000000x1 : Shape := ⟨2, ![25000000, 1]⟩
abbrev S200000 : Shape := ⟨1, ![200000]⟩
abbrev S262144 : Shape := ⟨1, ![262144]⟩
abbrev S1024x128 : Shape := ⟨2, ![1024, 128]⟩

abbrev nBuf : Space → Nat
  | .hbm => 90
  | .vmem => 24
  | .smem => 0
  | _ => 0

abbrev bufTy : (tb : Table) → Fin (tcTables nBuf tb) → BufTy
  | .hbm, ⟨0, _⟩ => ⟨S1000000, .f32⟩
  | .hbm, ⟨1, _⟩ => ⟨S25000000, .f32⟩
  | .hbm, ⟨2, _⟩ => ⟨S25000000, .f32⟩
  | .hbm, ⟨3, _⟩ => ⟨S25000000, .i32⟩
  | .hbm, ⟨4, _⟩ => ⟨S25000000, .i32⟩
  | .hbm, ⟨5, _⟩ => ⟨S_, .f32⟩
  | .hbm, ⟨6, _⟩ => ⟨S_, .f32⟩
  | .hbm, ⟨7, _⟩ => ⟨S1048576, .f32⟩
  | .hbm, ⟨8, _⟩ => ⟨S8192x128, .f32⟩
  | .hbm, ⟨9, _⟩ => ⟨S8192x128, .f32⟩
  | .hbm, ⟨10, _⟩ => ⟨S1048576, .f32⟩
  | .hbm, ⟨11, _⟩ => ⟨S1000000, .f32⟩
  | .hbm, ⟨12, _⟩ => ⟨S_, .f32⟩
  | .hbm, ⟨13, _⟩ => ⟨S_, .f32⟩
  | .hbm, ⟨14, _⟩ => ⟨S25165824, .f32⟩
  | .hbm, ⟨15, _⟩ => ⟨S196608x128, .f32⟩
  | .hbm, ⟨16, _⟩ => ⟨S_, .f32⟩
  | .hbm, ⟨17, _⟩ => ⟨S_, .f32⟩
  | .hbm, ⟨18, _⟩ => ⟨S25165824, .f32⟩
  | .hbm, ⟨19, _⟩ => ⟨S196608x128, .f32⟩
  | .hbm, ⟨20, _⟩ => ⟨S196608x128, .f32⟩
  | .hbm, ⟨21, _⟩ => ⟨S196608x128, .f32⟩
  | .hbm, ⟨22, _⟩ => ⟨S25165824, .f32⟩
  | .hbm, ⟨23, _⟩ => ⟨S25000000, .f32⟩
  | .hbm, ⟨24, _⟩ => ⟨S25165824, .f32⟩
  | .hbm, ⟨25, _⟩ => ⟨S25000000, .f32⟩
  | .hbm, ⟨26, _⟩ => ⟨S_, .f32⟩
  | .hbm, ⟨27, _⟩ => ⟨S1000000, .f32⟩
  | .hbm, ⟨28, _⟩ => ⟨S_, .i32⟩
  | .hbm, ⟨29, _⟩ => ⟨S25000000, .i32⟩
  | .hbm, ⟨30, _⟩ => ⟨S25000000, .i1⟩
  | .hbm, ⟨31, _⟩ => ⟨S_, .i32⟩
  | .hbm, ⟨32, _⟩ => ⟨S25000000, .i32⟩
  | .hbm, ⟨33, _⟩ => ⟨S25000000, .i32⟩
  | .hbm, ⟨34, _⟩ => ⟨S25000000, .i32⟩
  | .hbm, ⟨35, _⟩ => ⟨S25000000x1, .i32⟩
  | .hbm, ⟨36, _⟩ => ⟨S1000000, .f32⟩
  | .hbm, ⟨37, _⟩ => ⟨S1000000, .f32⟩
  | .hbm, ⟨38, _⟩ => ⟨S_, .f32⟩
  | .hbm, ⟨39, _⟩ => ⟨S200000, .f32⟩
  | .hbm, ⟨40, _⟩ => ⟨S_, .i32⟩
  | .hbm, ⟨41, _⟩ => ⟨S25000000, .i32⟩
  | .hbm, ⟨42, _⟩ => ⟨S25000000, .i1⟩
  | .hbm, ⟨43, _⟩ => ⟨S_, .i32⟩
  | .hbm, ⟨44, _⟩ => ⟨S25000000, .i32⟩
  | .hbm, ⟨45, _⟩ => ⟨S25000000, .i32⟩
  | .hbm, ⟨46, _⟩ => ⟨S25000000, .i32⟩
  | .hbm, ⟨47, _⟩ => ⟨S25000000x1, .i32⟩
  | .hbm, ⟨48, _⟩ => ⟨S200000, .f32⟩
  | .hbm, ⟨49, _⟩ => ⟨S_, .f32⟩
  | .hbm, ⟨50, _⟩ => ⟨S_, .f32⟩
  | .hbm, ⟨51, _⟩ => ⟨S1048576, .f32⟩
  | .hbm, ⟨52, _⟩ => ⟨S8192x128, .f32⟩
  | .hbm, ⟨53, _⟩ => ⟨S_, .f32⟩
  | .hbm, ⟨54, _⟩ => ⟨S_, .f32⟩
  | .hbm, ⟨55, _⟩ => ⟨S1048576, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S1048576, .f32⟩
  | .hbm, ⟨60, _⟩ => ⟨S1000000, .f32⟩
  | .hbm, ⟨61, _⟩ => ⟨S1048576, .f32⟩
  | .hbm, ⟨62, _⟩ => ⟨S1000000, .f32⟩
  | .hbm, ⟨63, _⟩ => ⟨S_, .f32⟩
  | .hbm, ⟨64, _⟩ => ⟨S_, .f32⟩
  | .hbm, ⟨65, _⟩ => ⟨S262144, .f32⟩
  | .hbm, ⟨66, _⟩ => ⟨S2048x128, .f32⟩
  | .hbm, ⟨67, _⟩ => ⟨S2048x128, .f32⟩
  | .hbm, ⟨68, _⟩ => ⟨S262144, .f32⟩
  | .hbm, ⟨69, _⟩ => ⟨S200000, .f32⟩
  | .hbm, ⟨70, _⟩ => ⟨S_, .i32⟩
  | .hbm, ⟨71, _⟩ => ⟨S25000000, .i32⟩
  | .hbm, ⟨72, _⟩ => ⟨S25000000, .i1⟩
  | .hbm, ⟨73, _⟩ => ⟨S_, .i32⟩
  | .hbm, ⟨74, _⟩ => ⟨S25000000, .i32⟩
  | .hbm, ⟨75, _⟩ => ⟨S25000000, .i32⟩
  | .hbm, ⟨76, _⟩ => ⟨S25000000, .i32⟩
  | .hbm, ⟨77, _⟩ => ⟨S25000000x1, .i32⟩
  | .hbm, ⟨78, _⟩ => ⟨S25000000, .f32⟩
  | .hbm, ⟨79, _⟩ => ⟨S25000000, .f32⟩
  | .hbm, ⟨80, _⟩ => ⟨S_, .i32⟩
  | .hbm, ⟨81, _⟩ => ⟨S25000000, .i32⟩
  | .hbm, ⟨82, _⟩ => ⟨S25000000, .i1⟩
  | .hbm, ⟨83, _⟩ => ⟨S_, .i32⟩
  | .hbm, ⟨84, _⟩ => ⟨S25000000, .i32⟩
  | .hbm, ⟨85, _⟩ => ⟨S25000000, .i32⟩
  | .hbm, ⟨86, _⟩ => ⟨S25000000, .i32⟩
  | .hbm, ⟨87, _⟩ => ⟨S25000000x1, .i32⟩
  | .hbm, ⟨88, _⟩ => ⟨S25000000, .f32⟩
  | .hbm, ⟨89, _⟩ => ⟨S25000000, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_call3_v0 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_call4_v0 : Ref sig .tc := ⟨.hbm, 54, rfl⟩
abbrev main_v33 : Ref sig .tc := ⟨.hbm, 55, rfl⟩
abbrev main_v34 : Ref sig .tc := ⟨.hbm, 56, rfl⟩
abbrev main_v35_0 : Ref sig .tc := ⟨.hbm, 57, rfl⟩
abbrev main_v35_1 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_call5_v0 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_12 : Ref sig .tc := ⟨.hbm, 80, rfl⟩
abbrev main_v53 : Ref sig .tc := ⟨.hbm, 81, rfl⟩
abbrev main_v54 : Ref sig .tc := ⟨.hbm, 82, rfl⟩
abbrev main_c_13 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![24], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  pads_S1000000_S1048576_0485760 : S1000000.Pads (![0] : Fin 1 → Nat) ![48576] ![0] S1048576
  h_S_ : 0 < S_.numel
  shapeCasts_S1048576_S8192x128 : S1048576.ShapeCasts S8192x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S8192x128_S1048576 : S8192x128.ShapeCasts S1048576
  slices_S1048576_S1000000_0 : S1048576.Slices ![0] S1000000
  pads_S25000000_S25165824_01658240 : S25000000.Pads (![0] : Fin 1 → Nat) ![165824] ![0] S25165824
  shapeCasts_S25165824_S196608x128 : S25165824.ShapeCasts S196608x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S196608x128_S25165824 : S196608x128.ShapeCasts S25165824
  slices_S25165824_S25000000_0 : S25165824.Slices ![0] S25000000
  bcast_S_S1000000 : S_.BroadcastsInDim S1000000 (![] : Fin 0 → Fin S1000000.rank)
  bcast_S_S25000000 : S_.BroadcastsInDim S25000000 (![] : Fin 0 → Fin S25000000.rank)
  bcast_S25000000_S25000000x1_0 : S25000000.BroadcastsInDim S25000000x1 (![0] : Fin 1 → Fin S25000000x1.rank)
  bcast_S_S200000 : S_.BroadcastsInDim S200000 (![] : Fin 0 → Fin S200000.rank)
  pads_S200000_S262144_0621440 : S200000.Pads (![0] : Fin 1 → Nat) ![62144] ![0] S262144
  shapeCasts_S262144_S2048x128 : S262144.ShapeCasts S2048x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S2048x128_S262144 : S2048x128.ShapeCasts S262144
  slices_S262144_S200000_0 : S262144.Slices ![0] S200000
  scatter_S1000000_S25000000x1_S25000000_n_0_0_1_wf : ScatterDims.WF S1000000 S25000000x1 S25000000 [] [0] [0] 1
  scatter_S200000_S25000000x1_S25000000_n_0_0_1_wf : ScatterDims.WF S200000 S25000000x1 S25000000 [] [0] [0] 1
  gather_S1000000_S25000000x1_S25000000_n_0_n_n_0_1_1_wf : GatherDims.WF S1000000 S25000000x1 S25000000 [] [0] [] [0] [] 1 ![1]
  gather_S200000_S25000000x1_S25000000_n_0_n_n_0_1_1_wf : GatherDims.WF S200000 S25000000x1 S25000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S196608x128.size a
  hwx1_0 : ∀ i : grid1.Coords, EltTy.bits .f32 = 32 ∨ (Rect.block (s := S196608x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S196608x128.size a
  hwx1_1 : ∀ i : grid1.Coords, EltTy.bits .f32 = 32 ∨ (Rect.block (s := S196608x128) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S196608x128.size a
  hwx1_2 : ∀ i : grid1.Coords, EltTy.bits .f32 = 32 ∨ (Rect.block (s := S196608x128) S8192x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S196608x128.size a
  hwx1_3 : ∀ i : grid1.Coords, EltTy.bits .f32 = 32 ∨ (Rect.block (s := S196608x128) S8192x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S8192x128.size a
  hwx2_0 : ∀ i : grid2.Coords, EltTy.bits .f32 = 32 ∨ (Rect.block (s := S8192x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S8192x128.size a
  hwx2_1 : ∀ i : grid2.Coords, EltTy.bits .f32 = 32 ∨ (Rect.block (s := S8192x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S8192x128.size a
  hwx2_2 : ∀ i : grid2.Coords, EltTy.bits .f32 = 32 ∨ (Rect.block (s := S8192x128) S2048x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S8192x128.size a
  hwx2_3 : ∀ i : grid2.Coords, EltTy.bits .f32 = 32 ∨ (Rect.block (s := S8192x128) S2048x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S2048x128.size a
  hwx3_0 : ∀ i : grid3.Coords, EltTy.bits .f32 = 32 ∨ (Rect.block (s := S2048x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S2048x128.size a
  hwx3_1 : ∀ i : grid3.Coords, EltTy.bits .f32 = 32 ∨ (Rect.block (s := S2048x128) S1024x128.size (cc3_transform_1 i) (hinb3_1 i)).WholeWords (EltTy.packing .f32)

variable [Facts₀]

def scatter_S1000000_S25000000x1_S25000000_n_0_0_1 : ScatterDims S1000000 S25000000x1 S25000000 where
  updateWindowDims := []
  insertedWindowDims := [0]
  scatterDimsToOperandDims := [0]
  indexVectorDim := 1
  wf := scatter_S1000000_S25000000x1_S25000000_n_0_0_1_wf
def scatter_S200000_S25000000x1_S25000000_n_0_0_1 : ScatterDims S200000 S25000000x1 S25000000 where
  updateWindowDims := []
  insertedWindowDims := [0]
  scatterDimsToOperandDims := [0]
  indexVectorDim := 1
  wf := scatter_S200000_S25000000x1_S25000000_n_0_0_1_wf
def gather_S1000000_S25000000x1_S25000000_n_0_n_n_0_1_1 : GatherDims S1000000 S25000000x1 S25000000 where
  offsetDims := []
  collapsedSliceDims := [0]
  operandBatchingDims := []
  startIndicesBatchingDims := []
  startIndexMap := [0]
  indexVectorDim := 1
  sliceSizes := ![1]
  wf := gather_S1000000_S25000000x1_S25000000_n_0_n_n_0_1_1_wf
def gather_S200000_S25000000x1_S25000000_n_0_n_n_0_1_1 : GatherDims S200000 S25000000x1 S25000000 where
  offsetDims := []
  collapsedSliceDims := [0]
  operandBatchingDims := []
  startIndicesBatchingDims := []
  startIndexMap := [0]
  indexVectorDim := 1
  sliceSizes := ![1]
  wf := gather_S200000_S25000000x1_S25000000_n_0_n_n_0_1_1_wf

abbrev win0_0 : Pipeline.Window sig grid0 :=
  Pipeline.Window.ofSpec (Memref.whole main_v1) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v6) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_0) S8192x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9_1) S8192x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v32) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35_0) S2048x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35_1) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S1024x128.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S1000000 : Shape := ⟨1, ![1000000]⟩
abbrev S25000000 : Shape := ⟨1, ![25000000]⟩
abbrev S_ : Shape := ⟨0, ![]⟩
abbrev S25000000x1 : Shape := ⟨2, ![25000000, 1]⟩
abbrev S200000 : Shape := ⟨1, ![200000]⟩

abbrev nBuf : Space → Nat
  | .hbm => 49
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S25000000, .f32⟩
  | .hbm, ⟨2, _⟩ => ⟨S25000000, .f32⟩
  | .hbm, ⟨3, _⟩ => ⟨S25000000, .i32⟩
  | .hbm, ⟨4, _⟩ => ⟨S25000000, .i32⟩
  | .hbm, ⟨5, _⟩ => ⟨S1000000, .f32⟩
  | .hbm, ⟨6, _⟩ => ⟨S25000000, .f32⟩
  | .hbm, ⟨7, _⟩ => ⟨S25000000, .f32⟩
  | .hbm, ⟨8, _⟩ => ⟨S_, .i32⟩
  | .hbm, ⟨9, _⟩ => ⟨S25000000, .i32⟩
  | .hbm, ⟨10, _⟩ => ⟨S25000000, .i1⟩
  | .hbm, ⟨11, _⟩ => ⟨S_, .i32⟩
  | .hbm, ⟨12, _⟩ => ⟨S25000000, .i32⟩
  | .hbm, ⟨13, _⟩ => ⟨S25000000, .i32⟩
  | .hbm, ⟨14, _⟩ => ⟨S25000000, .i32⟩
  | .hbm, ⟨15, _⟩ => ⟨S25000000x1, .i32⟩
  | .hbm, ⟨16, _⟩ => ⟨S1000000, .f32⟩
  | .hbm, ⟨17, _⟩ => ⟨S_, .i32⟩
  | .hbm, ⟨18, _⟩ => ⟨S25000000, .i32⟩
  | .hbm, ⟨19, _⟩ => ⟨S25000000, .i1⟩
  | .hbm, ⟨20, _⟩ => ⟨S_, .i32⟩
  | .hbm, ⟨21, _⟩ => ⟨S25000000, .i32⟩
  | .hbm, ⟨22, _⟩ => ⟨S25000000, .i32⟩
  | .hbm, ⟨23, _⟩ => ⟨S25000000, .i32⟩
  | .hbm, ⟨24, _⟩ => ⟨S25000000x1, .i32⟩
  | .hbm, ⟨25, _⟩ => ⟨S25000000, .f32⟩
  | .hbm, ⟨26, _⟩ => ⟨S25000000, .f32⟩
  | .hbm, ⟨27, _⟩ => ⟨S1000000, .f32⟩
  | .hbm, ⟨28, _⟩ => ⟨S_, .f32⟩
  | .hbm, ⟨29, _⟩ => ⟨S200000, .f32⟩
  | .hbm, ⟨30, _⟩ => ⟨S_, .i32⟩
  | .hbm, ⟨31, _⟩ => ⟨S25000000, .i32⟩
  | .hbm, ⟨32, _⟩ => ⟨S25000000, .i1⟩
  | .hbm, ⟨33, _⟩ => ⟨S_, .i32⟩
  | .hbm, ⟨34, _⟩ => ⟨S25000000, .i32⟩
  | .hbm, ⟨35, _⟩ => ⟨S25000000, .i32⟩
  | .hbm, ⟨36, _⟩ => ⟨S25000000, .i32⟩
  | .hbm, ⟨37, _⟩ => ⟨S25000000x1, .i32⟩
  | .hbm, ⟨38, _⟩ => ⟨S200000, .f32⟩
  | .hbm, ⟨39, _⟩ => ⟨S_, .i32⟩
  | .hbm, ⟨40, _⟩ => ⟨S25000000, .i32⟩
  | .hbm, ⟨41, _⟩ => ⟨S25000000, .i1⟩
  | .hbm, ⟨42, _⟩ => ⟨S_, .i32⟩
  | .hbm, ⟨43, _⟩ => ⟨S25000000, .i32⟩
  | .hbm, ⟨44, _⟩ => ⟨S25000000, .i32⟩
  | .hbm, ⟨45, _⟩ => ⟨S25000000, .i32⟩
  | .hbm, ⟨46, _⟩ => ⟨S25000000x1, .i32⟩
  | .hbm, ⟨47, _⟩ => ⟨S25000000, .f32⟩
  | .hbm, ⟨48, _⟩ => ⟨S25000000, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  bcast_S_S25000000 : S_.BroadcastsInDim S25000000 (![] : Fin 0 → Fin S25000000.rank)
  bcast_S25000000_S25000000x1_0 : S25000000.BroadcastsInDim S25000000x1 (![0] : Fin 1 → Fin S25000000x1.rank)
  bcast_S_S200000 : S_.BroadcastsInDim S200000 (![] : Fin 0 → Fin S200000.rank)
  scatter_S1000000_S25000000x1_S25000000_n_0_0_1_wf : ScatterDims.WF S1000000 S25000000x1 S25000000 [] [0] [0] 1
  gather_S1000000_S25000000x1_S25000000_n_0_n_n_0_1_1_wf : GatherDims.WF S1000000 S25000000x1 S25000000 [] [0] [] [0] [] 1 ![1]
  scatter_S200000_S25000000x1_S25000000_n_0_0_1_wf : ScatterDims.WF S200000 S25000000x1 S25000000 [] [0] [0] 1
  gather_S200000_S25000000x1_S25000000_n_0_n_n_0_1_1_wf : GatherDims.WF S200000 S25000000x1 S25000000 [] [0] [] [0] [] 1 ![1]

variable [Facts₀]

def scatter_S1000000_S25000000x1_S25000000_n_0_0_1 : ScatterDims S1000000 S25000000x1 S25000000 where
  updateWindowDims := []
  insertedWindowDims := [0]
  scatterDimsToOperandDims := [0]
  indexVectorDim := 1
  wf := scatter_S1000000_S25000000x1_S25000000_n_0_0_1_wf
def gather_S1000000_S25000000x1_S25000000_n_0_n_n_0_1_1 : GatherDims S1000000 S25000000x1 S25000000 where
  offsetDims := []
  collapsedSliceDims := [0]
  operandBatchingDims := []
  startIndicesBatchingDims := []
  startIndexMap := [0]
  indexVectorDim := 1
  sliceSizes := ![1]
  wf := gather_S1000000_S25000000x1_S25000000_n_0_n_n_0_1_1_wf
def scatter_S200000_S25000000x1_S25000000_n_0_0_1 : ScatterDims S200000 S25000000x1 S25000000 where
  updateWindowDims := []
  insertedWindowDims := [0]
  scatterDimsToOperandDims := [0]
  indexVectorDim := 1
  wf := scatter_S200000_S25000000x1_S25000000_n_0_0_1_wf
def gather_S200000_S25000000x1_S25000000_n_0_n_n_0_1_1 : GatherDims S200000 S25000000x1 S25000000 where
  offsetDims := []
  collapsedSliceDims := [0]
  operandBatchingDims := []
  startIndicesBatchingDims := []
  startIndexMap := [0]
  indexVectorDim := 1
  sliceSizes := ![1]
  wf := gather_S200000_S25000000x1_S25000000_n_0_n_n_0_1_1_wf

class Facts : Prop extends Facts₀ where

variable [Facts]
-- ==== Proof.KernelRun.lean ====
/-
  The idealized kernel's run, with every buffer named.

  The program is four pipelined regions among stretches of host operations. Its run is the launch theorem for
  such programs applied to the program's own list of segments; what the last segment leaves is a thread state in
  which every buffer that outlives the regions holds the last boundary's contents `W21` — the launch memory folded
  through every host stretch and every region's write-backs. Reading that thread state against the final memory
  gives the statement below: after every weakly fair execution each such buffer holds `W21` at it. The argument
  arrays and the three results are among those buffers.
-/
import proofs.«153787_j71236327572121_2_alg».proof.Proof.Gen.KernelIdeal.Frame

set_option maxRecDepth 16384

noncomputable section

namespace Cert.KernelIdeal.SegRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, and in the final memory every buffer
    that is not a region's own staging storage holds the last boundary's contents. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h => h)

/-- A buffer of the program that no region allocates for itself is among those the run accounts for. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W21 m ρ c (Proc.devRef .tc b)) :=
  (θ_run defs _ _).mono (fun r h c => h c _ (mem_uc b hb)) (run_buffers m ρ)

end Cert.KernelIdeal.SegRun

end
-- ==== Proof.Region0.lean ====
import proofs.«153787_j71236327572121_2_alg».proof.Proof.Gen.KernelIdeal.Frame
import Idealize.ShloMosaic.Lib.Pipeline.Value

noncomputable section

namespace Cert.KernelIdeal.Regions

open Idealize.ShloMosaic Idealize.ShloMosaic.TcCoe Idealize.SL.Sem Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

/-! # Region 0: the first kernel launch leaves the exponential of its whole input array

The grid has 4 points; point `t` reads rows `2048 t … 2048 t + 2047` (all 128 columns) of the input
array and writes the exponential of that block to the same rows of the output array. The four row
blocks partition the 8192 rows, so after the run the output array is the exponential of the input
array, index by index. -/

/-- The offsets of an access to a whole staging buffer are the zero function. -/
theorem zeroOffsets0 : (![0, 0] : Fin 2 → Nat) = fun _ => 0 := funext fun a => by fin_cases a <;> rfl

/-- The body's stored value is the exponential of the block it loaded (the cast of a shape to
    itself is the identity). -/
theorem expPayload0 (x : Vec F S2048x128 .f32) : k0_pay1 x = exp (x : FVec F S2048x128 .f32) := by
  unfold k0_pay1
  simp only [shapeCast_self]

/-- Both index maps send point `t` to block `(t, 0)`: decided over the 4 points. -/
theorem blockIndex0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input window's block at point `t`, at a position of the block, is the input array at that
    position's place in the array. -/
theorem inputBlock0 (c : Dev nD) (t : Fin cfg0.N) (j : S2048x128.Idx) :
    (iblk0 V c 0 t : Vec F S2048x128 .f32) j = (V c main_v1 : FVec F S8192x128 .f32) (((cfg0.win 0).blk t).view.emb j) := by
  show ((cfg0.win 0).blk t).view.read (Elt F) (V c (Pipeline.arrRef spec0 0)) j = _
  rfl

/-- What point `t` writes back is block `t` of the exponential of the whole input array: the input
    block and the output block sit at the same rows. -/
theorem writtenBack0 (c : Dev nD) (t : Fin cfg0.N) :
    (dat0 V c).flushed 1 t
      = ((cfg0.win 1).blk t).view.read (Elt F) (exp (V c main_v1 : FVec F S8192x128 .f32) : FVec F S8192x128 .f32) := by
  show (cfg0.win 1).cut (grid0.coords t) ((dat0 V c).after 1 t) = _
  rw [after0_1]
  unfold out0_1
  rw [View.canon_unit_zero zeroOffsets0]
  simp only [View.ld_unit_zero (S := S2048x128) zeroOffsets0]
  rw [expPayload0]
  obtain ⟨e0, e1, e2, e3⟩ := blockIndex0 t
  funext j
  show FloatOps.exp ((iblk0 V c 0 t : Vec F S2048x128 .f32) j)
    = FloatOps.exp ((V c main_v1 : FVec F S8192x128 .f32) (((cfg0.win 1).blk t).view.emb j))
  rw [inputBlock0]
  have h : ((cfg0.win 0).blk t).view.emb j = ((cfg0.win 1).blk t).view.emb j := by
    funext a; apply Fin.ext
    match a with
    | ⟨0, _⟩ => show win0_0.index t (0 : Fin 2) * 2048 + 1 * (j 0).val = win0_1.index t (0 : Fin 2) * 2048 + 1 * (j 0).val; omega
    | ⟨1, _⟩ => show win0_0.index t (1 : Fin 2) * 128 + 1 * (j 1).val = win0_1.index t (1 : Fin 2) * 128 + 1 * (j 1).val; omega
  rw [h]

/-- An index of the output array is in point `t`'s block iff each coordinate is in the block's
    range on its axis. -/
theorem inBlock0 (t : Fin cfg0.N) (i : S8192x128.Idx) :
    i ∈ ((cfg0.win 1).blk t).view.set ↔ ∀ a : Fin 2, win0_1.index t a * S2048x128.size a ≤ (i a).val ∧ (i a).val < win0_1.index t a * S2048x128.size a + S2048x128.size a := by
  show i ∈ ((View.whole main_v2).slice (win0_1.rect t)).set ↔ _
  rw [View.set_slice_whole, Rect.mem_set_unit]
  exact Iff.rfl

/-- Every index of the output array is in the block of the point its row falls in: row `r` is in
    block `r / 2048`. -/
theorem covered0 (i : S8192x128.Idx) :
    ∃ t : Fin cfg0.N, (cfg0.win 1).flush t = true ∧ i ∈ ((cfg0.win 1).blk t).view.set := by
  have hi0 : (i 0).val < 8192 := (i 0).isLt
  have hi1 : (i 1).val < 128 := (i 1).isLt
  obtain ⟨t, ht⟩ : ∃ t : Fin cfg0.N, t.val = (i 0).val / 2048 :=
    ⟨⟨(i 0).val / 2048, by rw [show cfg0.N = 4 from N_0]; omega⟩, rfl⟩
  obtain ⟨-, -, e2, e3⟩ := blockIndex0 t
  refine ⟨t, flush0_1 t, ?_⟩
  rw [inBlock0]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 128 ≤ (i 1).val ∧ (i 1).val < win0_1.index t (1 : Fin 2) * 128 + 128; omega

/-- THE OUTPUT ARRAY of the first kernel launch after its run: the exponential of its input array as
    the region found it. -/
theorem arr0_1 (c : Dev nD) :
    (dat0 V c).arrAt 1 cfg0.N = (exp (V c main_v1 : FVec F S8192x128 .f32) : FVec F S8192x128 .f32) :=
  (dat0 V c).arrAt_eq_of_cover 1 _ (fun t _ => writtenBack0 V c t) covered0

end Cert.KernelIdeal.Regions

end
-- ==== Proof.Region1.lean ====
import proofs.«153787_j71236327572121_2_alg».proof.Proof.Gen.KernelIdeal.Frame
import Idealize.ShloMosaic.Lib.Pipeline.Value

noncomputable section

namespace Cert.KernelIdeal.Regions

open Idealize.ShloMosaic Idealize.ShloMosaic.TcCoe Idealize.SL.Sem Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

/-! # Region 1: the second kernel launch leaves the exponentials of its two whole input arrays

The grid has 24 points; point `t` reads rows `8192 t … 8192 t + 8191` (all 128 columns) of each of the
two input arrays and writes the exponential of each block to the same rows of the matching output
array. The 24 row blocks partition the 196608 rows, so after the run each output array is the
exponential of its input array, index by index. -/

/-- The offsets of an access to a whole staging buffer are the zero function. -/
theorem zeroOffsets1 : (![0, 0] : Fin 2 → Nat) = fun _ => 0 := funext fun a => by fin_cases a <;> rfl

/-- The first stored value is the exponential of the first loaded block (the cast of a shape to
    itself is the identity). -/
theorem expPayload1a (x : Vec F S8192x128 .f32) : k1_pay1 x = exp (x : FVec F S8192x128 .f32) := by
  unfold k1_pay1
  simp only [shapeCast_self]

/-- The second stored value is the exponential of the second loaded block. -/
theorem expPayload1b (x : Vec F S8192x128 .f32) : k1_pay2 x = exp (x : FVec F S8192x128 .f32) := by
  unfold k1_pay2
  simp only [shapeCast_self]

/-- All four index maps send point `t` to block `(t, 0)`: decided over the 24 points. -/
theorem blockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Input window 0's block at point `t`, at a position of the block, is its array at that position's
    place in the array. -/
theorem inputBlock1a (c : Dev nD) (t : Fin cfg1.N) (j : S8192x128.Idx) :
    (iblk1 V c 0 t : Vec F S8192x128 .f32) j = (V c main_v6 : FVec F S196608x128 .f32) (((cfg1.win 0).blk t).view.emb j) := by
  show ((cfg1.win 0).blk t).view.read (Elt F) (V c (Pipeline.arrRef spec1 0)) j = _
  rfl

/-- Input window 1's block at point `t`, at a position of the block, is its array at that position's
    place in the array. -/
theorem inputBlock1b (c : Dev nD) (t : Fin cfg1.N) (j : S8192x128.Idx) :
    (iblk1 V c 1 t : Vec F S8192x128 .f32) j = (V c main_v8 : FVec F S196608x128 .f32) (((cfg1.win 1).blk t).view.emb j) := by
  show ((cfg1.win 1).blk t).view.read (Elt F) (V c (Pipeline.arrRef spec1 1)) j = _
  rfl

/-- What point `t` writes back to the first output array is block `t` of the exponential of the whole
    first input array: the input block and the output block sit at the same rows. -/
theorem writtenBack1a (c : Dev nD) (t : Fin cfg1.N) :
    (dat1 V c).flushed 2 t
      = ((cfg1.win 2).blk t).view.read (Elt F) (exp (V c main_v6 : FVec F S196608x128 .f32) : FVec F S196608x128 .f32) := by
  show (cfg1.win 2).cut (grid1.coords t) ((dat1 V c).after 2 t) = _
  rw [after1_2]
  unfold out1_2
  rw [View.canon_unit_zero zeroOffsets1]
  simp only [View.ld_unit_zero (S := S8192x128) zeroOffsets1]
  rw [expPayload1a]
  obtain ⟨e0, e1, e2, e3, e4, e5, e6, e7⟩ := blockIndex1 t
  funext j
  show FloatOps.exp ((iblk1 V c 0 t : Vec F S8192x128 .f32) j)
    = FloatOps.exp ((V c main_v6 : FVec F S196608x128 .f32) (((cfg1.win 2).blk t).view.emb j))
  rw [inputBlock1a]
  have h : ((cfg1.win 0).blk t).view.emb j = ((cfg1.win 2).blk t).view.emb j := by
    funext a; apply Fin.ext
    match a with
    | ⟨0, _⟩ => show win1_0.index t (0 : Fin 2) * 8192 + 1 * (j 0).val = win1_2.index t (0 : Fin 2) * 8192 + 1 * (j 0).val; omega
    | ⟨1, _⟩ => show win1_0.index t (1 : Fin 2) * 128 + 1 * (j 1).val = win1_2.index t (1 : Fin 2) * 128 + 1 * (j 1).val; omega
  rw [h]

/-- What point `t` writes back to the second output array is block `t` of the exponential of the
    whole second input array. -/
theorem writtenBack1b (c : Dev nD) (t : Fin cfg1.N) :
    (dat1 V c).flushed 3 t
      = ((cfg1.win 3).blk t).view.read (Elt F) (exp (V c main_v8 : FVec F S196608x128 .f32) : FVec F S196608x128 .f32) := by
  show (cfg1.win 3).cut (grid1.coords t) ((dat1 V c).after 3 t) = _
  rw [after1_3]
  unfold out1_3
  rw [View.canon_unit_zero zeroOffsets1]
  simp only [View.ld_unit_zero (S := S8192x128) zeroOffsets1]
  rw [expPayload1b]
  obtain ⟨e0, e1, e2, e3, e4, e5, e6, e7⟩ := blockIndex1 t
  funext j
  show FloatOps.exp ((iblk1 V c 1 t : Vec F S8192x128 .f32) j)
    = FloatOps.exp ((V c main_v8 : FVec F S196608x128 .f32) (((cfg1.win 3).blk t).view.emb j))
  rw [inputBlock1b]
  have h : ((cfg1.win 1).blk t).view.emb j = ((cfg1.win 3).blk t).view.emb j := by
    funext a; apply Fin.ext
    match a with
    | ⟨0, _⟩ => show win1_1.index t (0 : Fin 2) * 8192 + 1 * (j 0).val = win1_3.index t (0 : Fin 2) * 8192 + 1 * (j 0).val; omega
    | ⟨1, _⟩ => show win1_1.index t (1 : Fin 2) * 128 + 1 * (j 1).val = win1_3.index t (1 : Fin 2) * 128 + 1 * (j 1).val; omega
  rw [h]

/-- An index of the array of window 2 is in point `t`'s block iff each coordinate is in the block's
    range on its axis. -/
theorem inBlock1a (t : Fin cfg1.N) (i : S196608x128.Idx) :
    i ∈ ((cfg1.win 2).blk t).view.set ↔ ∀ a : Fin 2, win1_2.index t a * S8192x128.size a ≤ (i a).val ∧ (i a).val < win1_2.index t a * S8192x128.size a + S8192x128.size a := by
  show i ∈ ((View.whole main_v9_0).slice (win1_2.rect t)).set ↔ _
  rw [View.set_slice_whole, Rect.mem_set_unit]
  exact Iff.rfl

/-- An index of the array of window 3 is in point `t`'s block iff each coordinate is in the block's
    range on its axis. -/
theorem inBlock1b (t : Fin cfg1.N) (i : S196608x128.Idx) :
    i ∈ ((cfg1.win 3).blk t).view.set ↔ ∀ a : Fin 2, win1_3.index t a * S8192x128.size a ≤ (i a).val ∧ (i a).val < win1_3.index t a * S8192x128.size a + S8192x128.size a := by
  show i ∈ ((View.whole main_v9_1).slice (win1_3.rect t)).set ↔ _
  rw [View.set_slice_whole, Rect.mem_set_unit]
  exact Iff.rfl

/-- Every index of the array of window 2 is in the block of the point its row falls in: row `r` is
    in block `r / 8192`. -/
theorem covered1a (i : S196608x128.Idx) :
    ∃ t : Fin cfg1.N, (cfg1.win 2).flush t = true ∧ i ∈ ((cfg1.win 2).blk t).view.set := by
  have hi0 : (i 0).val < 196608 := (i 0).isLt
  have hi1 : (i 1).val < 128 := (i 1).isLt
  obtain ⟨t, ht⟩ : ∃ t : Fin cfg1.N, t.val = (i 0).val / 8192 :=
    ⟨⟨(i 0).val / 8192, by rw [show cfg1.N = 24 from N_1]; omega⟩, rfl⟩
  obtain ⟨-, -, -, -, e4, e5, -, -⟩ := blockIndex1 t
  refine ⟨t, flush1_2 t, ?_⟩
  rw [inBlock1a]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 128 ≤ (i 1).val ∧ (i 1).val < win1_2.index t (1 : Fin 2) * 128 + 128; omega

/-- Every index of the array of window 3 is in the block of the point its row falls in: row `r` is
    in block `r / 8192`. -/
theorem covered1b (i : S196608x128.Idx) :
    ∃ t : Fin cfg1.N, (cfg1.win 3).flush t = true ∧ i ∈ ((cfg1.win 3).blk t).view.set := by
  have hi0 : (i 0).val < 196608 := (i 0).isLt
  have hi1 : (i 1).val < 128 := (i 1).isLt
  obtain ⟨t, ht⟩ : ∃ t : Fin cfg1.N, t.val = (i 0).val / 8192 :=
    ⟨⟨(i 0).val / 8192, by rw [show cfg1.N = 24 from N_1]; omega⟩, rfl⟩
  obtain ⟨-, -, -, -, -, -, e6, e7⟩ := blockIndex1 t
  refine ⟨t, flush1_3 t, ?_⟩
  rw [inBlock1b]
  intro a
  match a with
  | ⟨0, _⟩ => show win1_3.index t (0 : Fin 2) * 8192 ≤ (i 0).val ∧ (i 0).val < win1_3.index t (0 : Fin 2) * 8192 + 8192; omega
  | ⟨1, _⟩ => show win1_3.index t (1 : Fin 2) * 128 ≤ (i 1).val ∧ (i 1).val < win1_3.index t (1 : Fin 2) * 128 + 128; omega

/-- THE FIRST OUTPUT ARRAY of the second kernel launch after its run: the exponential of its first
    input array as the region found it. -/
theorem arr1_2 (c : Dev nD) :
    (dat1 V c).arrAt 2 cfg1.N = (exp (V c main_v6 : FVec F S196608x128 .f32) : FVec F S196608x128 .f32) :=
  (dat1 V c).arrAt_eq_of_cover 2 _ (fun t _ => writtenBack1a V c t) covered1a

/-- THE SECOND OUTPUT ARRAY of the second kernel launch after its run: the exponential of its second
    input array as the region found it. -/
theorem arr1_3 (c : Dev nD) :
    (dat1 V c).arrAt 3 cfg1.N = (exp (V c main_v8 : FVec F S196608x128 .f32) : FVec F S196608x128 .f32) :=
  (dat1 V c).arrAt_eq_of_cover 3 _ (fun t _ => writtenBack1b V c t) covered1b

end Cert.KernelIdeal.Regions

end
-- ==== Proof.Region2.lean ====
import proofs.«153787_j71236327572121_2_alg».proof.Proof.Gen.KernelIdeal.Frame
import Idealize.ShloMosaic.Lib.Pipeline.Value

noncomputable section

namespace Cert.KernelIdeal.Regions

open Idealize.ShloMosaic Idealize.ShloMosaic.TcCoe Idealize.SL.Sem Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

/-! # Region 2: the third kernel launch leaves the reciprocals of its second input array and the products of its first with them

The grid has 4 points; point `t` reads rows `2048 t … 2048 t + 2047` (all 128 columns) of each of the
two input arrays, divides one by the second block elementwise, writes those reciprocals to the same rows
of the second output array, and writes the first block times those reciprocals to the same rows of the
first output array. The four row blocks partition the 8192 rows, so after the run each output array is
that elementwise function of the whole input arrays, index by index. -/

/-- The offsets of an access to a whole staging buffer are the zero function. -/
theorem zeroOffsets2 : (![0, 0] : Fin 2 → Nat) = fun _ => 0 := funext fun a => by fin_cases a <;> rfl

/-- The value stored to the second output: one divided by the loaded block, elementwise (the cast of a
    shape to itself is the identity). -/
theorem recipPayload2 (x : Vec F S2048x128 .f32) :
    k2_pay1 x = divf (broadcast S2048x128 (Scalar.ofBits .f32 0x3F800000#32)) (x : FVec F S2048x128 .f32) := by
  unfold k2_pay1
  simp only [shapeCast_self]

/-- The value stored to the first output: the other loaded block times those reciprocals. -/
theorem prodPayload2 (x y : Vec F S2048x128 .f32) :
    k2_pay2 x y = mulf (y : FVec F S2048x128 .f32) (divf (broadcast S2048x128 (Scalar.ofBits .f32 0x3F800000#32)) (x : FVec F S2048x128 .f32)) := by
  unfold k2_pay2
  rw [recipPayload2]
  simp only [shapeCast_self]

/-- All four index maps send point `t` to block `(t, 0)`: decided over the 4 points. -/
theorem blockIndex2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Input window 0's block at point `t`, at a position of the block, is its array at that position's
    place in the array. -/
theorem inputBlock2a (c : Dev nD) (t : Fin cfg2.N) (j : S2048x128.Idx) :
    (iblk2 V c 0 t : Vec F S2048x128 .f32) j = (V c main_v32 : FVec F S8192x128 .f32) (((cfg2.win 0).blk t).view.emb j) := by
  show ((cfg2.win 0).blk t).view.read (Elt F) (V c (Pipeline.arrRef spec2 0)) j = _
  rfl

/-- Input window 1's block at point `t`, at a position of the block, is its array at that position's
    place in the array. -/
theorem inputBlock2b (c : Dev nD) (t : Fin cfg2.N) (j : S2048x128.Idx) :
    (iblk2 V c 1 t : Vec F S2048x128 .f32) j = (V c main_v34 : FVec F S8192x128 .f32) (((cfg2.win 1).blk t).view.emb j) := by
  show ((cfg2.win 1).blk t).view.read (Elt F) (V c (Pipeline.arrRef spec2 1)) j = _
  rfl

/-- What point `t` writes back to the first output array is block `t` of the first input array times
    the reciprocals of the second, taken over the whole arrays: the input blocks and the output block
    sit at the same rows. -/
theorem writtenBack2a (c : Dev nD) (t : Fin cfg2.N) :
    (dat2 V c).flushed 2 t
      = ((cfg2.win 2).blk t).view.read (Elt F)
          (mulf (V c main_v32 : FVec F S8192x128 .f32) (divf (broadcast S8192x128 (Scalar.ofBits .f32 0x3F800000#32)) (V c main_v34 : FVec F S8192x128 .f32)) : FVec F S8192x128 .f32) := by
  show (cfg2.win 2).cut (grid2.coords t) ((dat2 V c).after 2 t) = _
  rw [after2_2]
  unfold out2_2
  rw [View.canon_unit_zero zeroOffsets2]
  simp only [View.ld_unit_zero (S := S2048x128) zeroOffsets2]
  rw [prodPayload2]
  obtain ⟨e0, e1, e2, e3, e4, e5, e6, e7⟩ := blockIndex2 t
  funext j
  show FloatOps.mulf ((iblk2 V c 0 t : Vec F S2048x128 .f32) j)
      (FloatOps.divf (Scalar.ofBits .f32 0x3F800000#32 : F .f32) ((iblk2 V c 1 t : Vec F S2048x128 .f32) j))
    = FloatOps.mulf ((V c main_v32 : FVec F S8192x128 .f32) (((cfg2.win 2).blk t).view.emb j))
      (FloatOps.divf (Scalar.ofBits .f32 0x3F800000#32 : F .f32) ((V c main_v34 : FVec F S8192x128 .f32) (((cfg2.win 2).blk t).view.emb j)))
  rw [inputBlock2a, inputBlock2b]
  have h0 : ((cfg2.win 0).blk t).view.emb j = ((cfg2.win 2).blk t).view.emb j := by
    funext a; apply Fin.ext
    match a with
    | ⟨0, _⟩ => show win2_0.index t (0 : Fin 2) * 2048 + 1 * (j 0).val = win2_2.index t (0 : Fin 2) * 2048 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 2048 + 1 * (j 0).val = win2_2.index t (0 : Fin 2) * 2048 + 1 * (j 0).val; omega
    | ⟨1, _⟩ => show win2_1.index t (1 : Fin 2) * 128 + 1 * (j 1).val = win2_2.index t (1 : Fin 2) * 128 + 1 * (j 1).val; omega
  rw [h0, h1]

/-- What point `t` writes back to the second output array is block `t` of the reciprocals of the whole
    second input array. -/
theorem writtenBack2b (c : Dev nD) (t : Fin cfg2.N) :
    (dat2 V c).flushed 3 t
      = ((cfg2.win 3).blk t).view.read (Elt F)
          (divf (broadcast S8192x128 (Scalar.ofBits .f32 0x3F800000#32)) (V c main_v34 : FVec F S8192x128 .f32) : FVec F S8192x128 .f32) := by
  show (cfg2.win 3).cut (grid2.coords t) ((dat2 V c).after 3 t) = _
  rw [after2_3]
  unfold out2_3
  rw [View.canon_unit_zero zeroOffsets2]
  simp only [View.ld_unit_zero (S := S2048x128) zeroOffsets2]
  rw [recipPayload2]
  obtain ⟨e0, e1, e2, e3, e4, e5, e6, e7⟩ := blockIndex2 t
  funext j
  show FloatOps.divf (Scalar.ofBits .f32 0x3F800000#32 : F .f32) ((iblk2 V c 1 t : Vec F S2048x128 .f32) j)
    = FloatOps.divf (Scalar.ofBits .f32 0x3F800000#32 : F .f32) ((V c main_v34 : FVec F S8192x128 .f32) (((cfg2.win 3).blk t).view.emb j))
  rw [inputBlock2b]
  have h : ((cfg2.win 1).blk t).view.emb j = ((cfg2.win 3).blk t).view.emb j := by
    funext a; apply Fin.ext
    match a with
    | ⟨0, _⟩ => show win2_1.index t (0 : Fin 2) * 2048 + 1 * (j 0).val = win2_3.index t (0 : Fin 2) * 2048 + 1 * (j 0).val; omega
    | ⟨1, _⟩ => show win2_1.index t (1 : Fin 2) * 128 + 1 * (j 1).val = win2_3.index t (1 : Fin 2) * 128 + 1 * (j 1).val; omega
  rw [h]

/-- An index of the array of window 2 is in point `t`'s block iff each coordinate is in the block's
    range on its axis. -/
theorem inBlock2a (t : Fin cfg2.N) (i : S8192x128.Idx) :
    i ∈ ((cfg2.win 2).blk t).view.set ↔ ∀ a : Fin 2, win2_2.index t a * S2048x128.size a ≤ (i a).val ∧ (i a).val < win2_2.index t a * S2048x128.size a + S2048x128.size a := by
  show i ∈ ((View.whole main_v35_0).slice (win2_2.rect t)).set ↔ _
  rw [View.set_slice_whole, Rect.mem_set_unit]
  exact Iff.rfl

/-- An index of the array of window 3 is in point `t`'s block iff each coordinate is in the block's
    range on its axis. -/
theorem inBlock2b (t : Fin cfg2.N) (i : S8192x128.Idx) :
    i ∈ ((cfg2.win 3).blk t).view.set ↔ ∀ a : Fin 2, win2_3.index t a * S2048x128.size a ≤ (i a).val ∧ (i a).val < win2_3.index t a * S2048x128.size a + S2048x128.size a := by
  show i ∈ ((View.whole main_v35_1).slice (win2_3.rect t)).set ↔ _
  rw [View.set_slice_whole, Rect.mem_set_unit]
  exact Iff.rfl

/-- Every index of the array of window 2 is in the block of the point its row falls in: row `r` is
    in block `r / 2048`. -/
theorem covered2a (i : S8192x128.Idx) :
    ∃ t : Fin cfg2.N, (cfg2.win 2).flush t = true ∧ i ∈ ((cfg2.win 2).blk t).view.set := by
  have hi0 : (i 0).val < 8192 := (i 0).isLt
  have hi1 : (i 1).val < 128 := (i 1).isLt
  obtain ⟨t, ht⟩ : ∃ t : Fin cfg2.N, t.val = (i 0).val / 2048 :=
    ⟨⟨(i 0).val / 2048, by rw [show cfg2.N = 4 from N_2]; omega⟩, rfl⟩
  obtain ⟨-, -, -, -, e4, e5, -, -⟩ := blockIndex2 t
  refine ⟨t, flush2_2 t, ?_⟩
  rw [inBlock2a]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 128 ≤ (i 1).val ∧ (i 1).val < win2_2.index t (1 : Fin 2) * 128 + 128; omega

/-- Every index of the array of window 3 is in the block of the point its row falls in: row `r` is
    in block `r / 2048`. -/
theorem covered2b (i : S8192x128.Idx) :
    ∃ t : Fin cfg2.N, (cfg2.win 3).flush t = true ∧ i ∈ ((cfg2.win 3).blk t).view.set := by
  have hi0 : (i 0).val < 8192 := (i 0).isLt
  have hi1 : (i 1).val < 128 := (i 1).isLt
  obtain ⟨t, ht⟩ : ∃ t : Fin cfg2.N, t.val = (i 0).val / 2048 :=
    ⟨⟨(i 0).val / 2048, by rw [show cfg2.N = 4 from N_2]; omega⟩, rfl⟩
  obtain ⟨-, -, -, -, -, -, e6, e7⟩ := blockIndex2 t
  refine ⟨t, flush2_3 t, ?_⟩
  rw [inBlock2b]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 128 ≤ (i 1).val ∧ (i 1).val < win2_3.index t (1 : Fin 2) * 128 + 128; omega

/-- THE FIRST OUTPUT ARRAY of the third kernel launch after its run: its first input array times the
    reciprocals of its second, as the region found them. -/
theorem arr2_2 (c : Dev nD) :
    (dat2 V c).arrAt 2 cfg2.N = (mulf (V c main_v32 : FVec F S8192x128 .f32) (divf (broadcast S8192x128 (Scalar.ofBits .f32 0x3F800000#32)) (V c main_v34 : FVec F S8192x128 .f32)) : FVec F S8192x128 .f32) :=
  (dat2 V c).arrAt_eq_of_cover 2 _ (fun t _ => writtenBack2a V c t) covered2a

/-- THE SECOND OUTPUT ARRAY of the third kernel launch after its run: the reciprocals of its second
    input array as the region found it. -/
theorem arr2_3 (c : Dev nD) :
    (dat2 V c).arrAt 3 cfg2.N = (divf (broadcast S8192x128 (Scalar.ofBits .f32 0x3F800000#32)) (V c main_v34 : FVec F S8192x128 .f32) : FVec F S8192x128 .f32) :=
  (dat2 V c).arrAt_eq_of_cover 3 _ (fun t _ => writtenBack2b V c t) covered2b

end Cert.KernelIdeal.Regions

end
-- ==== Proof.Region3.lean ====
import proofs.«153787_j71236327572121_2_alg».proof.Proof.Gen.KernelIdeal.Frame
import Idealize.ShloMosaic.Lib.Pipeline.Value

noncomputable section

namespace Cert.KernelIdeal.Regions

open Idealize.ShloMosaic Idealize.ShloMosaic.TcCoe Idealize.SL.Sem Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

/-! # Region 3: the fourth kernel launch leaves the reciprocals of its whole input array

The grid has 2 points; point `t` reads rows `1024 t … 1024 t + 1023` (all 128 columns) of the input
array and writes one divided by that block, elementwise, to the same rows of the output array. The two
row blocks partition the 2048 rows, so after the run the output array is the reciprocals of the input
array, index by index. -/

/-- The offsets of an access to a whole staging buffer are the zero function. -/
theorem zeroOffsets3 : (![0, 0] : Fin 2 → Nat) = fun _ => 0 := funext fun a => by fin_cases a <;> rfl

/-- The stored value: one divided by the loaded block, elementwise (the cast of a shape to itself is
    the identity). -/
theorem recipPayload3 (x : Vec F S1024x128 .f32) :
    k3_pay1 x = divf (broadcast S1024x128 (Scalar.ofBits .f32 0x3F800000#32)) (x : FVec F S1024x128 .f32) := by
  unfold k3_pay1
  simp only [shapeCast_self]

/-- Both index maps send point `t` to block `(t, 0)`: decided over the 2 points. -/
theorem blockIndex3 : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- Input window 0's block at point `t`, at a position of the block, is its array at that position's
    place in the array. -/
theorem inputBlock3 (c : Dev nD) (t : Fin cfg3.N) (j : S1024x128.Idx) :
    (iblk3 V c 0 t : Vec F S1024x128 .f32) j = (V c main_v41 : FVec F S2048x128 .f32) (((cfg3.win 0).blk t).view.emb j) := by
  show ((cfg3.win 0).blk t).view.read (Elt F) (V c (Pipeline.arrRef spec3 0)) j = _
  rfl

/-- What point `t` writes back is block `t` of the reciprocals of the whole input array: the input
    block and the output block sit at the same rows. -/
theorem writtenBack3 (c : Dev nD) (t : Fin cfg3.N) :
    (dat3 V c).flushed 1 t
      = ((cfg3.win 1).blk t).view.read (Elt F)
          (divf (broadcast S2048x128 (Scalar.ofBits .f32 0x3F800000#32)) (V c main_v41 : FVec F S2048x128 .f32) : FVec F S2048x128 .f32) := by
  show (cfg3.win 1).cut (grid3.coords t) ((dat3 V c).after 1 t) = _
  rw [after3_1]
  unfold out3_1
  rw [View.canon_unit_zero zeroOffsets3]
  simp only [View.ld_unit_zero (S := S1024x128) zeroOffsets3]
  rw [recipPayload3]
  obtain ⟨e0, e1, e2, e3⟩ := blockIndex3 t
  funext j
  show FloatOps.divf (Scalar.ofBits .f32 0x3F800000#32 : F .f32) ((iblk3 V c 0 t : Vec F S1024x128 .f32) j)
    = FloatOps.divf (Scalar.ofBits .f32 0x3F800000#32 : F .f32) ((V c main_v41 : FVec F S2048x128 .f32) (((cfg3.win 1).blk t).view.emb j))
  rw [inputBlock3]
  have h : ((cfg3.win 0).blk t).view.emb j = ((cfg3.win 1).blk t).view.emb j := by
    funext a; apply Fin.ext
    match a with
    | ⟨0, _⟩ => show win3_0.index t (0 : Fin 2) * 1024 + 1 * (j 0).val = win3_1.index t (0 : Fin 2) * 1024 + 1 * (j 0).val; omega
    | ⟨1, _⟩ => show win3_0.index t (1 : Fin 2) * 128 + 1 * (j 1).val = win3_1.index t (1 : Fin 2) * 128 + 1 * (j 1).val; omega
  rw [h]

/-- An index of the array of window 1 is in point `t`'s block iff each coordinate is in the block's
    range on its axis. -/
theorem inBlock3 (t : Fin cfg3.N) (i : S2048x128.Idx) :
    i ∈ ((cfg3.win 1).blk t).view.set ↔ ∀ a : Fin 2, win3_1.index t a * S1024x128.size a ≤ (i a).val ∧ (i a).val < win3_1.index t a * S1024x128.size a + S1024x128.size a := by
  show i ∈ ((View.whole main_v42).slice (win3_1.rect t)).set ↔ _
  rw [View.set_slice_whole, Rect.mem_set_unit]
  exact Iff.rfl

/-- Every index of the array of window 1 is in the block of the point its row falls in: row `r` is
    in block `r / 1024`. -/
theorem covered3 (i : S2048x128.Idx) :
    ∃ t : Fin cfg3.N, (cfg3.win 1).flush t = true ∧ i ∈ ((cfg3.win 1).blk t).view.set := by
  have hi0 : (i 0).val < 2048 := (i 0).isLt
  have hi1 : (i 1).val < 128 := (i 1).isLt
  obtain ⟨t, ht⟩ : ∃ t : Fin cfg3.N, t.val = (i 0).val / 1024 :=
    ⟨⟨(i 0).val / 1024, by rw [show cfg3.N = 2 from N_3]; omega⟩, rfl⟩
  obtain ⟨-, -, e2, e3⟩ := blockIndex3 t
  refine ⟨t, flush3_1 t, ?_⟩
  rw [inBlock3]
  intro a
  match a with
  | ⟨0, _⟩ => show win3_1.index t (0 : Fin 2) * 1024 ≤ (i 0).val ∧ (i 0).val < win3_1.index t (0 : Fin 2) * 1024 + 1024; omega
  | ⟨1, _⟩ => show win3_1.index t (1 : Fin 2) * 128 ≤ (i 1).val ∧ (i 1).val < win3_1.index t (1 : Fin 2) * 128 + 128; omega

/-- THE OUTPUT ARRAY of the fourth kernel launch after its run: the reciprocals of its input array as
    the region found it. -/
theorem arr3_1 (c : Dev nD) :
    (dat3 V c).arrAt 1 cfg3.N = (divf (broadcast S2048x128 (Scalar.ofBits .f32 0x3F800000#32)) (V c main_v41 : FVec F S2048x128 .f32) : FVec F S2048x128 .f32) :=
  (dat3 V c).arrAt_eq_of_cover 1 _ (fun t _ => writtenBack3 V c t) covered3

end Cert.KernelIdeal.Regions

end
-- ==== Proof.KernelValue.lean ====
/-
  What the idealized kernel's three result buffers hold after its run, as closed terms of the argument arrays.

  The program works on flat arrays through padded tilings: a flat array of n entries is padded at its high end to
  R·128 entries and reshaped to [R, 128] (`tile`), a pipelined region maps it pointwise block by block, and the
  result is reshaped back and cut to its first n entries (`untile`). With that vocabulary the program is:
    expU  = untile (exp (tile w0))                        the exponentials of the per-user weights
    expE  = untile (exp (tile w))                         the exponentials of the per-edge weights (twice)
    sumU  = expU + scatter-add of expE w1 at the user index into zeros
    sumI  = scatter-add of expE w2 at the item index into zeros
    out0  = untile (tile expU · (1 / tile sumU)),  invU = untile (1 / tile sumU),  invI = untile (1 / tile sumI)
    out1  = expE w1 · gather of invU at the user index,   out2 = expE w2 · gather of invI at the item index.
  Each lemma below says what ONE buffer holds at ONE boundary between the program's segments: a stretch of host
  operations is read by its operations' results, a region by its closed form (the whole output array is the body's
  pointwise function of the whole input arrays) at its output arrays and by "untouched" at every other buffer.
-/
import proofs.«153787_j71236327572121_2_alg».proof.Proof.Gen.KernelIdeal.Frame
import proofs.«153787_j71236327572121_2_alg».proof.Proof.Region0
import proofs.«153787_j71236327572121_2_alg».proof.Proof.Region1
import proofs.«153787_j71236327572121_2_alg».proof.Proof.Region2
import proofs.«153787_j71236327572121_2_alg».proof.Proof.Region3
import Idealize.ShloMosaic.Lib.StableHlo.Run

set_option maxRecDepth 16384

noncomputable section

namespace Cert.KernelIdeal.SegValue

open Idealize.ShloMosaic Idealize.ShloMosaic.TcCoe Idealize.SL.Sem Idealize.ShloMosaic.StableHlo
open Cert.KernelIdeal Cert.KernelIdeal.Gen Cert.KernelIdeal.Regions

variable {F : FTy → Type} [FloatOps F]

/-! ## The vocabulary -/

/-- The scalar pad values: zero for the exponentials' inputs, one for the divisors. -/
def zeroS : FVec F S_ .f32 := constant S_ .f32 0x00000000#32
def oneS : FVec F S_ .f32 := constant S_ .f32 0x3F800000#32

/-- The padded [R, 128] tiling of a flat array and its inverse, at the three lengths of the program:
    users (10^6 into 8192 rows), edges (2.5·10^7 into 196608 rows), items (2·10^5 into 2048 rows). -/
def tileU (x : FVec F S1000000 .f32) (v : FVec F S_ .f32) : FVec F S8192x128 .f32 :=
  shapeCast S8192x128 (pad S1048576 ![0] ![48576] ![0] x v pads_S1000000_S1048576_0485760 h_S_) shapeCasts_S1048576_S8192x128
def untileU (y : FVec F S8192x128 .f32) : FVec F S1000000 .f32 :=
  extractStridedSlice S1000000 ![0] (shapeCast S1048576 y shapeCasts_S8192x128_S1048576) slices_S1048576_S1000000_0
def tileE (x : FVec F S25000000 .f32) (v : FVec F S_ .f32) : FVec F S196608x128 .f32 :=
  shapeCast S196608x128 (pad S25165824 ![0] ![165824] ![0] x v pads_S25000000_S25165824_01658240 h_S_) shapeCasts_S25165824_S196608x128
def untileE (y : FVec F S196608x128 .f32) : FVec F S25000000 .f32 :=
  extractStridedSlice S25000000 ![0] (shapeCast S25165824 y shapeCasts_S196608x128_S25165824) slices_S25165824_S25000000_0
def tileI (x : FVec F S200000 .f32) (v : FVec F S_ .f32) : FVec F S2048x128 .f32 :=
  shapeCast S2048x128 (pad S262144 ![0] ![62144] ![0] x v pads_S200000_S262144_0621440 h_S_) shapeCasts_S262144_S2048x128
def untileI (y : FVec F S2048x128 .f32) : FVec F S200000 .f32 :=
  extractStridedSlice S200000 ![0] (shapeCast S262144 y shapeCasts_S2048x128_S262144) slices_S262144_S200000_0

/-- An index array as the scatter and the gather take it: a negative entry moved up by the table's length, then a
    unit axis appended. -/
def userIdx (i : IVec S25000000 32) : IVec S25000000x1 32 :=
  broadcastInDim S25000000x1 ![0] bcast_S25000000_S25000000x1_0
    (select (cmpi .slt i (broadcastInDim S25000000 ![] bcast_S_S25000000 (constantI S_ 32 0#32)))
      (addi i (broadcastInDim S25000000 ![] bcast_S_S25000000 (constantI S_ 32 1000000#32))) i)
def itemIdx (i : IVec S25000000 32) : IVec S25000000x1 32 :=
  broadcastInDim S25000000x1 ![0] bcast_S25000000_S25000000x1_0
    (select (cmpi .slt i (broadcastInDim S25000000 ![] bcast_S_S25000000 (constantI S_ 32 0#32)))
      (addi i (broadcastInDim S25000000 ![] bcast_S_S25000000 (constantI S_ 32 200000#32))) i)

/-- The exponentials, through the tilings. -/
def expU (a0 : FVec F S1000000 .f32) : FVec F S1000000 .f32 := untileU (exp (tileU a0 zeroS))
def expE (a : FVec F S25000000 .f32) : FVec F S25000000 .f32 := untileE (exp (tileE a zeroS))

/-- The per-user and per-item sums. -/
def sumU (a0 : FVec F S1000000 .f32) (a1 : FVec F S25000000 .f32) (i3 : IVec S25000000 32) : FVec F S1000000 .f32 :=
  addf (expU a0) (Host.scatterAdd scatter_S1000000_S25000000x1_S25000000_n_0_0_1
    (broadcastInDim S1000000 ![] bcast_S_S1000000 zeroS) (userIdx i3) (expE a1))
def sumI (a2 : FVec F S25000000 .f32) (i4 : IVec S25000000 32) : FVec F S200000 .f32 :=
  Host.scatterAdd scatter_S200000_S25000000x1_S25000000_n_0_0_1
    (broadcastInDim S200000 ![] bcast_S_S200000 zeroS) (itemIdx i4) (expE a2)

/-- The reciprocal of a tiled table (padded with ones). -/
def recipU (s : FVec F S1000000 .f32) : FVec F S8192x128 .f32 :=
  divf (broadcast S8192x128 (Scalar.ofBits .f32 0x3F800000#32)) (tileU s oneS)
def recipI (s : FVec F S200000 .f32) : FVec F S2048x128 .f32 :=
  divf (broadcast S2048x128 (Scalar.ofBits .f32 0x3F800000#32)) (tileI s oneS)

/-- The three results and the two reciprocal tables. -/
def out0 (a0 : FVec F S1000000 .f32) (a1 : FVec F S25000000 .f32) (i3 : IVec S25000000 32) : FVec F S1000000 .f32 :=
  untileU (mulf (tileU (expU a0) zeroS) (recipU (sumU a0 a1 i3)))
def invU (a0 : FVec F S1000000 .f32) (a1 : FVec F S25000000 .f32) (i3 : IVec S25000000 32) : FVec F S1000000 .f32 :=
  untileU (recipU (sumU a0 a1 i3))
def invI (a2 : FVec F S25000000 .f32) (i4 : IVec S25000000 32) : FVec F S200000 .f32 :=
  untileI (recipI (sumI a2 i4))
def out1 (a0 : FVec F S1000000 .f32) (a1 : FVec F S25000000 .f32) (i3 : IVec S25000000 32) : FVec F S25000000 .f32 :=
  mulf (expE a1) (Host.gather gather_S1000000_S25000000x1_S25000000_n_0_n_n_0_1_1 (invU a0 a1 i3) (userIdx i3))
def out2 (a2 : FVec F S25000000 .f32) (i4 : IVec S25000000 32) : FVec F S25000000 .f32 :=
  mulf (expE a2) (Host.gather gather_S200000_S25000000x1_S25000000_n_0_n_n_0_1_1 (invI a2 i4) (itemIdx i4))

variable (m : (ℓ : Loc nD τ sig) → Buf (Elt F) ℓ) (ρ : Dev nD → PrngReg)

/-! ## Region 0: the exponential of the tiled per-user weights -/

theorem W3_v1 (c : Dev nD) : W3 m ρ c (Proc.devRef .tc main_v1) = tileU (m ((c.tc : Thread nD τ).loc main_arg0)) zeroS := by
  after_results <;> rfl

theorem W4_v2 (c : Dev nD) : W4 m ρ c (Proc.devRef .tc main_v2) = exp (tileU (m ((c.tc : Thread nD τ).loc main_arg0)) zeroS) :=
  (W4_arr m ρ c 1).trans ((arr0_1 (V3 m ρ) c).trans (congrArg (fun x => exp x) (W3_v1 m ρ c)))

theorem W4_arg1 (c : Dev nD) : W4 m ρ c (Proc.devRef .tc main_arg1) = (m ((c.tc : Thread nD τ).loc main_arg1)) :=
  (W4_of_ne m ρ c main_arg1 (by decide)).trans (by after_results <;> rfl)
theorem W4_arg2 (c : Dev nD) : W4 m ρ c (Proc.devRef .tc main_arg2) = (m ((c.tc : Thread nD τ).loc main_arg2)) :=
  (W4_of_ne m ρ c main_arg2 (by decide)).trans (by after_results <;> rfl)
theorem W4_arg3 (c : Dev nD) : W4 m ρ c (Proc.devRef .tc main_arg3) = (m ((c.tc : Thread nD τ).loc main_arg3)) :=
  (W4_of_ne m ρ c main_arg3 (by decide)).trans (by after_results <;> rfl)
theorem W4_arg4 (c : Dev nD) : W4 m ρ c (Proc.devRef .tc main_arg4) = (m ((c.tc : Thread nD τ).loc main_arg4)) :=
  (W4_of_ne m ρ c main_arg4 (by decide)).trans (by after_results <;> rfl)

/-! ## Region 1: the exponentials of the two tiled per-edge weights -/

theorem W9_v4 (c : Dev nD) : W9 m ρ c (Proc.devRef .tc main_v4) = expU (m ((c.tc : Thread nD τ).loc main_arg0)) := by
  after_results; rw [W4_v2] <;> try rfl
theorem W9_v6 (c : Dev nD) : W9 m ρ c (Proc.devRef .tc main_v6) = tileE (m ((c.tc : Thread nD τ).loc main_arg1)) zeroS := by
  after_results; rw [W4_arg1] <;> try rfl
theorem W9_v8 (c : Dev nD) : W9 m ρ c (Proc.devRef .tc main_v8) = tileE (m ((c.tc : Thread nD τ).loc main_arg2)) zeroS := by
  after_results; rw [W4_arg2] <;> try rfl
theorem W9_arg3 (c : Dev nD) : W9 m ρ c (Proc.devRef .tc main_arg3) = (m ((c.tc : Thread nD τ).loc main_arg3)) := by
  after_results; exact W4_arg3 m ρ c
theorem W9_arg4 (c : Dev nD) : W9 m ρ c (Proc.devRef .tc main_arg4) = (m ((c.tc : Thread nD τ).loc main_arg4)) := by
  after_results; exact W4_arg4 m ρ c

theorem W10_v9_0 (c : Dev nD) : W10 m ρ c (Proc.devRef .tc main_v9_0) = exp (tileE (m ((c.tc : Thread nD τ).loc main_arg1)) zeroS) :=
  (W10_arr m ρ c 2).trans ((arr1_2 (V9 m ρ) c).trans (congrArg (fun x => exp x) (W9_v6 m ρ c)))
theorem W10_v9_1 (c : Dev nD) : W10 m ρ c (Proc.devRef .tc main_v9_1) = exp (tileE (m ((c.tc : Thread nD τ).loc main_arg2)) zeroS) :=
  (W10_arr m ρ c 3).trans ((arr1_3 (V9 m ρ) c).trans (congrArg (fun x => exp x) (W9_v8 m ρ c)))
theorem W10_v4 (c : Dev nD) : W10 m ρ c (Proc.devRef .tc main_v4) = expU (m ((c.tc : Thread nD τ).loc main_arg0)) :=
  (W10_of_ne m ρ c main_v4 (by decide)).trans (W9_v4 m ρ c)
theorem W10_arg3 (c : Dev nD) : W10 m ρ c (Proc.devRef .tc main_arg3) = (m ((c.tc : Thread nD τ).loc main_arg3)) :=
  (W10_of_ne m ρ c main_arg3 (by decide)).trans (W9_arg3 m ρ c)
theorem W10_arg4 (c : Dev nD) : W10 m ρ c (Proc.devRef .tc main_arg4) = (m ((c.tc : Thread nD τ).loc main_arg4)) :=
  (W10_of_ne m ρ c main_arg4 (by decide)).trans (W9_arg4 m ρ c)

/-! ## The host stretch between regions 1 and 2: the two scatter-adds, and region 2's tiled operands -/

theorem W15_v11 (c : Dev nD) : W15 m ρ c (Proc.devRef .tc main_v11) = expE (m ((c.tc : Thread nD τ).loc main_arg1)) := by
  after_results; rw [W10_v9_0] <;> try rfl
theorem W15_v13 (c : Dev nD) : W15 m ρ c (Proc.devRef .tc main_v13) = expE (m ((c.tc : Thread nD τ).loc main_arg2)) := by
  after_results; rw [W10_v9_1] <;> try rfl
set_option maxHeartbeats 4000000 in
theorem W15_v30 (c : Dev nD) : W15 m ρ c (Proc.devRef .tc main_v30) = sumI (m ((c.tc : Thread nD τ).loc main_arg2)) (m ((c.tc : Thread nD τ).loc main_arg4)) := by
  after_results_simp; rw [W10_v9_1, W10_arg4] <;> try rfl
theorem W15_v32 (c : Dev nD) : W15 m ρ c (Proc.devRef .tc main_v32) = tileU (expU (m ((c.tc : Thread nD τ).loc main_arg0))) zeroS := by
  after_results; rw [W10_v4] <;> try rfl
set_option maxHeartbeats 4000000 in
theorem W15_v34 (c : Dev nD) : W15 m ρ c (Proc.devRef .tc main_v34) = tileU (sumU (m ((c.tc : Thread nD τ).loc main_arg0)) (m ((c.tc : Thread nD τ).loc main_arg1)) (m ((c.tc : Thread nD τ).loc main_arg3))) oneS := by
  after_results_simp; rw [W10_v4, W10_v9_0, W10_arg3] <;> try rfl
theorem W15_arg3 (c : Dev nD) : W15 m ρ c (Proc.devRef .tc main_arg3) = (m ((c.tc : Thread nD τ).loc main_arg3)) := by
  after_results; exact W10_arg3 m ρ c
theorem W15_arg4 (c : Dev nD) : W15 m ρ c (Proc.devRef .tc main_arg4) = (m ((c.tc : Thread nD τ).loc main_arg4)) := by
  after_results; exact W10_arg4 m ρ c

/-! ## Region 2: the reciprocal of the tiled per-user sums, and its product with the tiled exponentials -/

theorem W16_v35_0 (c : Dev nD) : W16 m ρ c (Proc.devRef .tc main_v35_0)
    = mulf (tileU (expU (m ((c.tc : Thread nD τ).loc main_arg0))) zeroS) (recipU (sumU (m ((c.tc : Thread nD τ).loc main_arg0)) (m ((c.tc : Thread nD τ).loc main_arg1)) (m ((c.tc : Thread nD τ).loc main_arg3)))) :=
  (W16_arr m ρ c 2).trans ((arr2_2 (V15 m ρ) c).trans
    (congrArg₂ (fun x y => mulf x (divf (broadcast S8192x128 (Scalar.ofBits .f32 0x3F800000#32)) y)) (W15_v32 m ρ c) (W15_v34 m ρ c)))
theorem W16_v35_1 (c : Dev nD) : W16 m ρ c (Proc.devRef .tc main_v35_1) = recipU (sumU (m ((c.tc : Thread nD τ).loc main_arg0)) (m ((c.tc : Thread nD τ).loc main_arg1)) (m ((c.tc : Thread nD τ).loc main_arg3))) :=
  (W16_arr m ρ c 3).trans ((arr2_3 (V15 m ρ) c).trans
    (congrArg (fun y => divf (broadcast S8192x128 (Scalar.ofBits .f32 0x3F800000#32)) y) (W15_v34 m ρ c)))
theorem W16_v11 (c : Dev nD) : W16 m ρ c (Proc.devRef .tc main_v11) = expE (m ((c.tc : Thread nD τ).loc main_arg1)) :=
  (W16_of_ne m ρ c main_v11 (by decide)).trans (W15_v11 m ρ c)
theorem W16_v13 (c : Dev nD) : W16 m ρ c (Proc.devRef .tc main_v13) = expE (m ((c.tc : Thread nD τ).loc main_arg2)) :=
  (W16_of_ne m ρ c main_v13 (by decide)).trans (W15_v13 m ρ c)
theorem W16_v30 (c : Dev nD) : W16 m ρ c (Proc.devRef .tc main_v30) = sumI (m ((c.tc : Thread nD τ).loc main_arg2)) (m ((c.tc : Thread nD τ).loc main_arg4)) :=
  (W16_of_ne m ρ c main_v30 (by decide)).trans (W15_v30 m ρ c)
theorem W16_arg3 (c : Dev nD) : W16 m ρ c (Proc.devRef .tc main_arg3) = (m ((c.tc : Thread nD τ).loc main_arg3)) :=
  (W16_of_ne m ρ c main_arg3 (by decide)).trans (W15_arg3 m ρ c)
theorem W16_arg4 (c : Dev nD) : W16 m ρ c (Proc.devRef .tc main_arg4) = (m ((c.tc : Thread nD τ).loc main_arg4)) :=
  (W16_of_ne m ρ c main_arg4 (by decide)).trans (W15_arg4 m ρ c)

/-! ## The host stretch between regions 2 and 3: the first result, the per-user reciprocals, region 3's operand -/

theorem W19_v37 (c : Dev nD) : W19 m ρ c (Proc.devRef .tc main_v37) = out0 (m ((c.tc : Thread nD τ).loc main_arg0)) (m ((c.tc : Thread nD τ).loc main_arg1)) (m ((c.tc : Thread nD τ).loc main_arg3)) := by
  after_results; rw [W16_v35_0] <;> try rfl
theorem W19_v39 (c : Dev nD) : W19 m ρ c (Proc.devRef .tc main_v39) = invU (m ((c.tc : Thread nD τ).loc main_arg0)) (m ((c.tc : Thread nD τ).loc main_arg1)) (m ((c.tc : Thread nD τ).loc main_arg3)) := by
  after_results; rw [W16_v35_1] <;> try rfl
theorem W19_v41 (c : Dev nD) : W19 m ρ c (Proc.devRef .tc main_v41) = tileI (sumI (m ((c.tc : Thread nD τ).loc main_arg2)) (m ((c.tc : Thread nD τ).loc main_arg4))) oneS := by
  after_results; rw [W16_v30] <;> try rfl
theorem W19_v11 (c : Dev nD) : W19 m ρ c (Proc.devRef .tc main_v11) = expE (m ((c.tc : Thread nD τ).loc main_arg1)) := by
  after_results; exact W16_v11 m ρ c
theorem W19_v13 (c : Dev nD) : W19 m ρ c (Proc.devRef .tc main_v13) = expE (m ((c.tc : Thread nD τ).loc main_arg2)) := by
  after_results; exact W16_v13 m ρ c
theorem W19_arg3 (c : Dev nD) : W19 m ρ c (Proc.devRef .tc main_arg3) = (m ((c.tc : Thread nD τ).loc main_arg3)) := by
  after_results; exact W16_arg3 m ρ c
theorem W19_arg4 (c : Dev nD) : W19 m ρ c (Proc.devRef .tc main_arg4) = (m ((c.tc : Thread nD τ).loc main_arg4)) := by
  after_results; exact W16_arg4 m ρ c

/-! ## Region 3: the reciprocal of the tiled per-item sums -/

theorem W20_v42 (c : Dev nD) : W20 m ρ c (Proc.devRef .tc main_v42) = recipI (sumI (m ((c.tc : Thread nD τ).loc main_arg2)) (m ((c.tc : Thread nD τ).loc main_arg4))) :=
  (W20_arr m ρ c 1).trans ((arr3_1 (V19 m ρ) c).trans
    (congrArg (fun y => divf (broadcast S2048x128 (Scalar.ofBits .f32 0x3F800000#32)) y) (W19_v41 m ρ c)))
theorem W20_v37 (c : Dev nD) : W20 m ρ c (Proc.devRef .tc main_v37) = out0 (m ((c.tc : Thread nD τ).loc main_arg0)) (m ((c.tc : Thread nD τ).loc main_arg1)) (m ((c.tc : Thread nD τ).loc main_arg3)) :=
  (W20_of_ne m ρ c main_v37 (by decide)).trans (W19_v37 m ρ c)
theorem W20_v39 (c : Dev nD) : W20 m ρ c (Proc.devRef .tc main_v39) = invU (m ((c.tc : Thread nD τ).loc main_arg0)) (m ((c.tc : Thread nD τ).loc main_arg1)) (m ((c.tc : Thread nD τ).loc main_arg3)) :=
  (W20_of_ne m ρ c main_v39 (by decide)).trans (W19_v39 m ρ c)
theorem W20_v11 (c : Dev nD) : W20 m ρ c (Proc.devRef .tc main_v11) = expE (m ((c.tc : Thread nD τ).loc main_arg1)) :=
  (W20_of_ne m ρ c main_v11 (by decide)).trans (W19_v11 m ρ c)
theorem W20_v13 (c : Dev nD) : W20 m ρ c (Proc.devRef .tc main_v13) = expE (m ((c.tc : Thread nD τ).loc main_arg2)) :=
  (W20_of_ne m ρ c main_v13 (by decide)).trans (W19_v13 m ρ c)
theorem W20_arg3 (c : Dev nD) : W20 m ρ c (Proc.devRef .tc main_arg3) = (m ((c.tc : Thread nD τ).loc main_arg3)) :=
  (W20_of_ne m ρ c main_arg3 (by decide)).trans (W19_arg3 m ρ c)
theorem W20_arg4 (c : Dev nD) : W20 m ρ c (Proc.devRef .tc main_arg4) = (m ((c.tc : Thread nD τ).loc main_arg4)) :=
  (W20_of_ne m ρ c main_arg4 (by decide)).trans (W19_arg4 m ρ c)

/-! ## The last host stretch: the three results -/

/-- The first result: the tiled exponentials times the tiled reciprocal sums, untiled. -/
theorem W21_v37 (c : Dev nD) : W21 m ρ c (Proc.devRef .tc main_v37) = out0 (m ((c.tc : Thread nD τ).loc main_arg0)) (m ((c.tc : Thread nD τ).loc main_arg1)) (m ((c.tc : Thread nD τ).loc main_arg3)) := by
  after_results; exact W20_v37 m ρ c
set_option maxHeartbeats 4000000 in
/-- The second result: the per-edge exponentials times the per-user reciprocals gathered at the user index. -/
theorem W21_v52 (c : Dev nD) : W21 m ρ c (Proc.devRef .tc main_v52) = out1 (m ((c.tc : Thread nD τ).loc main_arg0)) (m ((c.tc : Thread nD τ).loc main_arg1)) (m ((c.tc : Thread nD τ).loc main_arg3)) := by
  after_results_simp; rw [W20_v11, W20_v39, W20_arg3] <;> try rfl
set_option maxHeartbeats 4000000 in
/-- The third result: the per-edge exponentials times the per-item reciprocals gathered at the item index. -/
theorem W21_v60 (c : Dev nD) : W21 m ρ c (Proc.devRef .tc main_v60) = out2 (m ((c.tc : Thread nD τ).loc main_arg2)) (m ((c.tc : Thread nD τ).loc main_arg4)) := by
  after_results_simp; rw [W20_v13, W20_v42, W20_arg4] <;> try rfl

end Cert.KernelIdeal.SegValue

end
-- ==== Proof.LibFlatTiles.lean ====
import Idealize.ShloMosaic.PureOps
import Idealize.ShloMosaic.Lib.Pipeline.Value
import Idealize.ShloMosaic.Lib.ValueIdx
import Idealize.ShloMosaic.Lib.KernelVsHost

/-!
# A flat array mapped pointwise through a padded two-dimensional layout

A flat array `x` of `N` entries is padded at its high end with `hi` copies of a value to `P = N + hi` entries,
reshaped to `R` rows of 128 lanes (`P = R · 128`), mapped pointwise by `f`, reshaped back to `P` flat entries
and cut to its first `N` entries. The result is `fun p => f (x p)`: the two reshapes are inverse re-indexings
(both keep the row-major position), a pointwise map commutes with every re-indexing, and the first `N` entries
of the padded array are the entries of `x`. The padding value is never read, so it may be anything.

The extents are natural-number parameters and every side condition (the padding relation, the two
equal-element-count conditions, the slice being in range, the padding value's shape having an element) is a
hypothesis, so the statements apply to whatever proofs of them a program carries.
-/

noncomputable section

namespace Cert.Lib.FlatTiles

open Idealize.ShloMosaic
open Idealize.ShloMosaic.ValueIdx

/-- The first `N` entries of a flat array padded at its high end are the array: entry `p < N` of the padded
array lies inside the operand (no low padding, no interior padding), where the padded array reads `x p`. -/
theorem slice_pad {α : Type} {N P hi : Nat} (x : (⟨1, ![N]⟩ : Shape).Idx → α) {u : Shape} (v : u.Idx → α)
    (hp : (⟨1, ![N]⟩ : Shape).Pads (![0] : Fin 1 → Nat) ![hi] ![0] ⟨1, ![P]⟩) (hu : 0 < u.numel)
    (h3 : (⟨1, ![P]⟩ : Shape).Slices ![0] ⟨1, ![N]⟩) :
    extractStridedSlice ⟨1, ![N]⟩ ![0] (pad ⟨1, ![P]⟩ ![0] ![hi] ![0] x v hp hu) h3 = x := by
  funext p
  have hle : (0 : Nat) + N ≤ P := h3.2 (0 : Fin 1)
  have hN : (p 0).val < N := (p 0).isLt
  have hm : (p 0).val < P := by omega
  refine (extractStridedSlice_apply _ _ h3 p (ix1 (⟨(p 0).val, hm⟩ : Fin P)) (by
    intro a
    have ha : a = 0 := Subsingleton.elim _ _
    subst ha
    show (p 0).val = 0 + (p 0).val; omega)).trans ?_
  exact pad_apply_of_inside _ _ _ x v hp hu _ p (by
    intro a
    have ha : a = 0 := Subsingleton.elim _ _
    subst ha
    show (p 0).val = 0 + (p 0).val * (0 + 1); omega)

/-- Pad, reshape to rows of 128, reshape back, cut: the array again. The two reshapes cancel (each keeps the
row-major position), and the cut undoes the padding. -/
theorem unpad_pad {α : Type} {N P R hi : Nat} (x : (⟨1, ![N]⟩ : Shape).Idx → α) {u : Shape} (v : u.Idx → α)
    (hp : (⟨1, ![N]⟩ : Shape).Pads (![0] : Fin 1 → Nat) ![hi] ![0] ⟨1, ![P]⟩) (hu : 0 < u.numel)
    (h1 : (⟨1, ![P]⟩ : Shape).ShapeCasts ⟨2, ![R, 128]⟩) (h2 : (⟨2, ![R, 128]⟩ : Shape).ShapeCasts ⟨1, ![P]⟩)
    (h3 : (⟨1, ![P]⟩ : Shape).Slices ![0] ⟨1, ![N]⟩) :
    extractStridedSlice ⟨1, ![N]⟩ ![0]
      (shapeCast ⟨1, ![P]⟩ (shapeCast ⟨2, ![R, 128]⟩ (pad ⟨1, ![P]⟩ ![0] ![hi] ![0] x v hp hu) h1) h2) h3 = x := by
  rw [shapeCast_shapeCast]
  exact slice_pad x v hp hu h3

/-- Reshaping to flat and cutting are re-indexings, so they commute with a pointwise map. -/
theorem slice_reshape_map {α β : Type} (f : α → β) {N P R : Nat} (X : (⟨2, ![R, 128]⟩ : Shape).Idx → α)
    (h2 : (⟨2, ![R, 128]⟩ : Shape).ShapeCasts ⟨1, ![P]⟩) (h3 : (⟨1, ![P]⟩ : Shape).Slices ![0] ⟨1, ![N]⟩) :
    extractStridedSlice ⟨1, ![N]⟩ ![0] (shapeCast ⟨1, ![P]⟩ (fun i => f (X i)) h2) h3
      = fun p => f (extractStridedSlice ⟨1, ![N]⟩ ![0] (shapeCast ⟨1, ![P]⟩ X h2) h3 p) := rfl

/-- The same for a pointwise map of two arrays. -/
theorem slice_reshape_map₂ {α β γ : Type} (g : α → β → γ) {N P R : Nat} (X : (⟨2, ![R, 128]⟩ : Shape).Idx → α)
    (Y : (⟨2, ![R, 128]⟩ : Shape).Idx → β)
    (h2 : (⟨2, ![R, 128]⟩ : Shape).ShapeCasts ⟨1, ![P]⟩) (h3 : (⟨1, ![P]⟩ : Shape).Slices ![0] ⟨1, ![N]⟩) :
    extractStridedSlice ⟨1, ![N]⟩ ![0] (shapeCast ⟨1, ![P]⟩ (fun i => g (X i) (Y i)) h2) h3
      = fun p => g (extractStridedSlice ⟨1, ![N]⟩ ![0] (shapeCast ⟨1, ![P]⟩ X h2) h3 p)
          (extractStridedSlice ⟨1, ![N]⟩ ![0] (shapeCast ⟨1, ![P]⟩ Y h2) h3 p) := rfl

/-- Pad, reshape to rows of 128, map pointwise, reshape back, cut: the pointwise map of the array. -/
theorem unpad_map_pad {α β : Type} (f : α → β) {N P R hi : Nat} (x : (⟨1, ![N]⟩ : Shape).Idx → α) {u : Shape}
    (v : u.Idx → α) (hp : (⟨1, ![N]⟩ : Shape).Pads (![0] : Fin 1 → Nat) ![hi] ![0] ⟨1, ![P]⟩) (hu : 0 < u.numel)
    (h1 : (⟨1, ![P]⟩ : Shape).ShapeCasts ⟨2, ![R, 128]⟩) (h2 : (⟨2, ![R, 128]⟩ : Shape).ShapeCasts ⟨1, ![P]⟩)
    (h3 : (⟨1, ![P]⟩ : Shape).Slices ![0] ⟨1, ![N]⟩) :
    extractStridedSlice ⟨1, ![N]⟩ ![0]
      (shapeCast ⟨1, ![P]⟩ (fun i => f (shapeCast ⟨2, ![R, 128]⟩ (pad ⟨1, ![P]⟩ ![0] ![hi] ![0] x v hp hu) h1 i)) h2) h3
      = fun p => f (x p) := by
  rw [slice_reshape_map f, unpad_pad x v hp hu h1 h2 h3]

/-- The same for a pointwise map of two arrays, each padded with its own value under its own hypotheses. -/
theorem unpad_map₂_pad {α β γ : Type} (g : α → β → γ) {N P R hi : Nat}
    (x : (⟨1, ![N]⟩ : Shape).Idx → α) {ux : Shape} (vx : ux.Idx → α)
    (hpx : (⟨1, ![N]⟩ : Shape).Pads (![0] : Fin 1 → Nat) ![hi] ![0] ⟨1, ![P]⟩) (hux : 0 < ux.numel)
    (h1x : (⟨1, ![P]⟩ : Shape).ShapeCasts ⟨2, ![R, 128]⟩)
    (y : (⟨1, ![N]⟩ : Shape).Idx → β) {uy : Shape} (vy : uy.Idx → β)
    (hpy : (⟨1, ![N]⟩ : Shape).Pads (![0] : Fin 1 → Nat) ![hi] ![0] ⟨1, ![P]⟩) (huy : 0 < uy.numel)
    (h1y : (⟨1, ![P]⟩ : Shape).ShapeCasts ⟨2, ![R, 128]⟩)
    (h2 : (⟨2, ![R, 128]⟩ : Shape).ShapeCasts ⟨1, ![P]⟩) (h3 : (⟨1, ![P]⟩ : Shape).Slices ![0] ⟨1, ![N]⟩) :
    extractStridedSlice ⟨1, ![N]⟩ ![0]
      (shapeCast ⟨1, ![P]⟩
        (fun i => g (shapeCast ⟨2, ![R, 128]⟩ (pad ⟨1, ![P]⟩ ![0] ![hi] ![0] x vx hpx hux) h1x i)
          (shapeCast ⟨2, ![R, 128]⟩ (pad ⟨1, ![P]⟩ ![0] ![hi] ![0] y vy hpy huy) h1y i)) h2) h3
      = fun p => g (x p) (y p) := by
  rw [slice_reshape_map₂ g, unpad_pad x vx hpx hux h1x h2 h3, unpad_pad y vy hpy huy h1y h2 h3]

end Cert.Lib.FlatTiles

end
-- ==== Proof.LibRecipMul.lean ====
import Idealize.ShloMosaic.PureOps
import Idealize.ShloMosaic.PureOps.Ideal
import Idealize.ShloMosaic.PureOps.Ideal.Laws
import Idealize.ShloMosaic.Lib.IdealHost

/-!
# A product with a reciprocal against a quotient, over the extended reals

Pointwise facts about the extended-real reading of float arrays: multiplying by `1 / b` is dividing by `b`
whenever the numerator is not zero (also at `b = 0`, where both sides are the infinity of the numerator's sign);
the exponential of a real number is not zero; the word of `1.0` denotes `1` and the word of `+0.0` denotes `0`;
a scatter-add into an array of zeros, then added to `x`, is the scatter-add into `x`; and a gather commutes with
a pointwise map.
-/

noncomputable section

namespace Cert.Lib.RecipMul

open Idealize.ShloMosaic

/-- For `a ≠ 0` the product `a · (1 / b)` is the quotient `a / b`, at every `b`. Off `b = 0` both sides are
`a · b⁻¹` (as `1 · b⁻¹ = b⁻¹`). At `b = 0` the reciprocal `1 / 0` is `⊤`, and `a · ⊤` is `⊤` for `a > 0`
and `⊥` for `a < 0`: the value the quotient `a / 0` is given. (At `a = 0` the two differ: `0 · ⊤ = 0`, `0 / 0 = ⊥`.) -/
theorem mul_one_div {a b : EReal} (ha : a ≠ 0) : a * Ideal.div 1 b = Ideal.div a b := by
  unfold Ideal.div
  by_cases hb : b = 0
  · rw [if_pos hb, if_pos hb, if_pos (zero_lt_one : (0 : EReal) < 1)]
    rcases lt_or_gt_of_ne ha with h | h
    · rw [if_neg (not_lt.mpr h.le)]; exact EReal.mul_top_of_neg h
    · rw [if_pos h]; exact EReal.mul_top_of_pos h
  · rw [if_neg hb, if_neg hb, one_mul]

/-- The 32-bit word `0x3F800000` (sign 0, exponent 127, fraction 0) denotes the real number `1`. -/
theorem ofBits_one : (Scalar.ofBits (F := Ideal) .f32 0x3F800000#32) = (1 : EReal) :=
  Ideal.ofBits_one_f32

/-- The 32-bit word `0x00000000` denotes the real number `0`. -/
theorem ofBits_zero : (Scalar.ofBits (F := Ideal) .f32 0x00000000#32) = (0 : EReal) :=
  Ideal.ofBits_zero_f32

/-- The exponential of a real number is a positive real, so it is not zero. -/
theorem exp_ne_zero_of_real (r : ℝ) : Ideal.exp (r : EReal) ≠ 0 := by
  rw [Ideal.exp_coe]
  exact EReal.coe_ne_zero.mpr (Real.exp_pos r).ne'

/-- The exponential of a real number is positive. -/
theorem exp_pos_of_real (r : ℝ) : 0 < Ideal.exp (r : EReal) := by
  rw [Ideal.exp_coe]
  exact EReal.coe_pos.mpr (Real.exp_pos r)

/-- The exponential a kernel applies lane by lane and the one the host applies element by element are the same
function of extended reals. -/
theorem exp_eq_hostExp {s : Shape} (x : FVec Ideal s .f32) : exp (F := Ideal) x = Host.exp (F := Ideal) x := rfl

/-- Pointwise, `x · (1 / y)` is the quotient `x / y` when no element of `x` is zero; `1` is spelt by its word. -/
theorem mulf_recip_eq_divf {s : Shape} (x y : FVec Ideal s .f32) (hx : ∀ i, x i ≠ (0 : EReal)) :
    mulf (F := Ideal) x (divf (F := Ideal) (broadcast s (Scalar.ofBits (F := Ideal) .f32 0x3F800000#32)) y)
      = Host.divf (F := Ideal) x y := by
  funext i
  show x i * Ideal.div (Scalar.ofBits (F := Ideal) .f32 0x3F800000#32) (y i) = Ideal.div (x i) (y i)
  rw [ofBits_one]
  exact mul_one_div (hx i)

/-- The same, written index by index. -/
theorem mulf_recip_eq_divf' {s : Shape} (x y : FVec Ideal s .f32) (hx : ∀ i, x i ≠ (0 : EReal)) :
    (fun i => FloatOps.mulf (x i) (FloatOps.divf (Scalar.ofBits (F := Ideal) .f32 0x3F800000#32) (y i)))
      = Host.divf (F := Ideal) x y :=
  mulf_recip_eq_divf x y hx

/-- Adding to `x` a scatter-add into an array `z` of zeros is the scatter-add into `x`: at each element,
`x i + (0 + Σ) = x i + Σ`, the sum being over the updates that land on `i`. -/
theorem addf_scatterAdd_zero {s si su : Shape} {w : Nat} (d : ScatterDims s si su) (x z : FVec Ideal s .f32)
    (idx : IVec si w) (upd : FVec Ideal su .f32) (hz : ∀ i, z i = (0 : EReal)) :
    addf (F := Ideal) x (Host.scatterAdd (F := Ideal) d z idx upd) = Host.scatterAdd (F := Ideal) d x idx upd := by
  funext i
  show x i + Ideal.hostScatterAdd d z idx upd i = Ideal.hostScatterAdd d x idx upd i
  unfold Ideal.hostScatterAdd
  rw [hz i, zero_add]

/-- A scalar `+0.0` broadcast to any shape reads `0` at every index. -/
theorem zeros_apply {t : Shape} (h : (⟨0, ![]⟩ : Shape).BroadcastsInDim t (![] : Fin 0 → Fin t.rank)) (i : t.Idx) :
    broadcastInDim t ![] h (constant (F := Ideal) ⟨0, ![]⟩ .f32 0x00000000#32) i = (0 : EReal) :=
  Ideal.ofBits_zero_f32

/-- A gather re-indexes its operand, so it commutes with a pointwise map of the operand. -/
theorem gather_map {α β : Type} {s si t : Shape} {w : Nat} (d : GatherDims s si t) (f : α → β) (x : s.Idx → α)
    (idx : IVec si w) : Host.gather d (fun p => f (x p)) idx = fun j => f (Host.gather d x idx j) := rfl

end Cert.Lib.RecipMul

end
-- ==== Proof.Bridge.lean ====
/-
  The kernel's results are the reference's, at the ideal instance.

  Through the tilings every region is a pointwise map of flat arrays (padding, reshaping and cutting are
  re-indexings that cancel), so at the extended reals the kernel's results read
    out0 p = e0 p · (1 / s1 p),   out1 j = e1 j · (1 / s1 (u j)),   out2 j = e2 j · (1 / s2 (v j)),
  with e = exp w, s1 = e0 + (0 + Σ e1 over the edges of a user), s2 = 0 + Σ e2 over the edges of an item, and
  u, v the clamped user and item of an edge. The reference divides: e0 p / s1' p, e1 j / s1' (u j), e2 j / s2 (v j)
  with s1' = e0 + Σ e1. The sums agree because adding into zeros and then adding e0 is adding into e0. The
  quotient x / y on the extended reals is x · y⁻¹ off zero and the infinity of x's sign at y = 0, so
  x · (1 / y) = x / y whenever x ≠ 0 — and every numerator here is the exponential of a real number, which is
  positive. That is the one place the inputs' finiteness is used.
-/
import proofs.«153787_j71236327572121_2_alg».proof.Proof.KernelValue
import proofs.«153787_j71236327572121_2_alg».proof.Proof.LibFlatTiles
import proofs.«153787_j71236327572121_2_alg».proof.Proof.LibRecipMul

set_option maxRecDepth 16384

noncomputable section

namespace Cert.KernelIdeal.Bridge

open Idealize.ShloMosaic Idealize.ShloMosaic.TcCoe
open Cert.KernelIdeal Cert.KernelIdeal.Gen Cert.KernelIdeal.SegValue Cert.Lib.FlatTiles Cert.Lib.RecipMul

/-- The word of 1.0, as the bodies splat it. -/
abbrev one : Ideal .f32 := Scalar.ofBits (F := Ideal) .f32 0x3F800000#32

/-! ## The reference's three terms, over this program's own shape records -/

def ref0 (a0 : FVec Ideal S1000000 .f32) (a1 : FVec Ideal S25000000 .f32) (i3 : IVec S25000000 32) : FVec Ideal S1000000 .f32 :=
  Host.divf (Host.exp a0) (Host.scatterAdd scatter_S1000000_S25000000x1_S25000000_n_0_0_1 (Host.exp a0) (userIdx i3) (Host.exp a1))
def ref1 (a0 : FVec Ideal S1000000 .f32) (a1 : FVec Ideal S25000000 .f32) (i3 : IVec S25000000 32) : FVec Ideal S25000000 .f32 :=
  Host.divf (Host.exp a1) (Host.gather gather_S1000000_S25000000x1_S25000000_n_0_n_n_0_1_1
    (Host.scatterAdd scatter_S1000000_S25000000x1_S25000000_n_0_0_1 (Host.exp a0) (userIdx i3) (Host.exp a1)) (userIdx i3))
def ref2 (a2 : FVec Ideal S25000000 .f32) (i4 : IVec S25000000 32) : FVec Ideal S25000000 .f32 :=
  Host.divf (Host.exp a2) (Host.gather gather_S200000_S25000000x1_S25000000_n_0_n_n_0_1_1
    (Host.scatterAdd scatter_S200000_S25000000x1_S25000000_n_0_0_1
      (broadcastInDim S200000 ![] bcast_S_S200000 (constant (F := Ideal) S_ .f32 0x00000000#32)) (itemIdx i4) (Host.exp a2)) (itemIdx i4))

/-! ## The tilings cancel -/

/-- The exponential through the user tiling is the exponential. -/
theorem expU_eq (a0 : FVec Ideal S1000000 .f32) : expU (F := Ideal) a0 = Host.exp a0 :=
  unpad_map_pad (fun a : EReal => Ideal.exp a) a0 (zeroS (F := Ideal)) pads_S1000000_S1048576_0485760 h_S_ shapeCasts_S1048576_S8192x128 shapeCasts_S8192x128_S1048576 slices_S1048576_S1000000_0

/-- The exponential through the edge tiling is the exponential. -/
theorem expE_eq (a : FVec Ideal S25000000 .f32) : expE (F := Ideal) a = Host.exp a :=
  unpad_map_pad (fun a : EReal => Ideal.exp a) a (zeroS (F := Ideal)) pads_S25000000_S25165824_01658240 h_S_ shapeCasts_S25165824_S196608x128 shapeCasts_S196608x128_S25165824 slices_S25165824_S25000000_0

/-- The reciprocal through the user tiling (padded with ones) is the reciprocal, entry by entry. -/
theorem untile_recipU (s : FVec Ideal S1000000 .f32) :
    untileU (recipU (F := Ideal) s) = fun p => FloatOps.divf one (s p) :=
  unpad_map_pad (fun b : Ideal .f32 => FloatOps.divf (F := Ideal) one b) s (oneS (F := Ideal)) pads_S1000000_S1048576_0485760 h_S_ shapeCasts_S1048576_S8192x128 shapeCasts_S8192x128_S1048576 slices_S1048576_S1000000_0

/-- The reciprocal through the item tiling is the reciprocal, entry by entry. -/
theorem untile_recipI (s : FVec Ideal S200000 .f32) :
    untileI (recipI (F := Ideal) s) = fun p => FloatOps.divf one (s p) :=
  unpad_map_pad (fun b : Ideal .f32 => FloatOps.divf (F := Ideal) one b) s (oneS (F := Ideal)) pads_S200000_S262144_0621440 h_S_ shapeCasts_S262144_S2048x128 shapeCasts_S2048x128_S262144 slices_S262144_S200000_0

/-- The product with the reciprocal, through the user tiling, entry by entry. -/
theorem untile_mul_recipU (x s : FVec Ideal S1000000 .f32) :
    untileU (mulf (tileU x zeroS) (recipU (F := Ideal) s)) = fun p => FloatOps.mulf (x p) (FloatOps.divf one (s p)) :=
  unpad_map₂_pad (fun a b : Ideal .f32 => FloatOps.mulf (F := Ideal) a (FloatOps.divf (F := Ideal) one b)) x (zeroS (F := Ideal)) pads_S1000000_S1048576_0485760 h_S_ shapeCasts_S1048576_S8192x128 s (oneS (F := Ideal)) pads_S1000000_S1048576_0485760 h_S_ shapeCasts_S1048576_S8192x128 shapeCasts_S8192x128_S1048576 slices_S1048576_S1000000_0

/-! ## The sums -/

/-- Adding the scattered exponentials into zeros and then adding the per-user exponentials is adding them into the
    per-user exponentials. -/
theorem sumU_eq (a0 : FVec Ideal S1000000 .f32) (a1 : FVec Ideal S25000000 .f32) (i3 : IVec S25000000 32) :
    sumU (F := Ideal) a0 a1 i3
      = Host.scatterAdd scatter_S1000000_S25000000x1_S25000000_n_0_0_1 (Host.exp a0) (userIdx i3) (Host.exp a1) := by
  unfold sumU
  rw [expU_eq, expE_eq]
  exact addf_scatterAdd_zero _ _ _ _ _ (fun i => zeros_apply bcast_S_S1000000 i)

theorem sumI_eq (a2 : FVec Ideal S25000000 .f32) (i4 : IVec S25000000 32) :
    sumI (F := Ideal) a2 i4
      = Host.scatterAdd scatter_S200000_S25000000x1_S25000000_n_0_0_1
          (broadcastInDim S200000 ![] bcast_S_S200000 (constant (F := Ideal) S_ .f32 0x00000000#32)) (itemIdx i4) (Host.exp a2) := by
  unfold sumI
  rw [expE_eq]
  rfl

/-! ## The exponential of a real input is not zero -/

theorem hostExp_ne_zero {s : Shape} (a : FVec Ideal s .f32) (h : ∀ i, ∃ r : ℝ, a i = (r : EReal)) (i : s.Idx) :
    Host.exp a i ≠ (0 : EReal) := by
  obtain ⟨r, hr⟩ := h i
  show Ideal.exp (a i) ≠ 0
  rw [hr]
  exact exp_ne_zero_of_real r

/-! ## The three results -/

theorem out0_eq (a0 : FVec Ideal S1000000 .f32) (a1 : FVec Ideal S25000000 .f32) (i3 : IVec S25000000 32)
    (h0 : ∀ i, ∃ r : ℝ, a0 i = (r : EReal)) : out0 (F := Ideal) a0 a1 i3 = ref0 a0 a1 i3 := by
  unfold out0 ref0
  rw [untile_mul_recipU, sumU_eq, expU_eq]
  exact mulf_recip_eq_divf' _ _ (hostExp_ne_zero a0 h0)

theorem out1_eq (a0 : FVec Ideal S1000000 .f32) (a1 : FVec Ideal S25000000 .f32) (i3 : IVec S25000000 32)
    (h1 : ∀ i, ∃ r : ℝ, a1 i = (r : EReal)) : out1 (F := Ideal) a0 a1 i3 = ref1 a0 a1 i3 := by
  unfold out1 ref1 invU
  rw [untile_recipU, sumU_eq, expE_eq, gather_map]
  exact mulf_recip_eq_divf' _ _ (hostExp_ne_zero a1 h1)

theorem out2_eq (a2 : FVec Ideal S25000000 .f32) (i4 : IVec S25000000 32)
    (h2 : ∀ i, ∃ r : ℝ, a2 i = (r : EReal)) : out2 (F := Ideal) a2 i4 = ref2 a2 i4 := by
  unfold out2 ref2 invI
  rw [untile_recipI, sumI_eq, expE_eq, gather_map]
  exact mulf_recip_eq_divf' _ _ (hostExp_ne_zero a2 h2)

end Cert.KernelIdeal.Bridge

end
-- ==== Proof.FiniteInputs.lean ====
import proofs.«153787_j71236327572121_2_alg».proof.Defs
import proofs.«153787_j71236327572121_2_alg».proof.Proof.Gen.Pre_finite_inputs
import Idealize.ShloMosaic.Lib.ReduceAll
import Idealize.ShloMosaic.PureOps.Ideal

noncomputable section

namespace Cert.KernelIdeal.Finite

open Idealize.ShloMosaic Idealize.SL.Sem

/-- The shape of rank zero has exactly one index: the empty tuple of coordinates. -/
instance subsingleton_S_ : Subsingleton Cert.Pre_finite_inputs.S_.Idx := ⟨fun a b => funext fun d => d.elim0⟩

/-- The f32 pattern with all exponent bits set and a zero significand denotes `+∞`. -/
theorem ofBits_posInf : Ideal.ofBits .f32 0x7F800000#32 = (⊤ : EReal) := by
  simp [Ideal.ofBits, Ideal.ieee]

/-- An extended real whose absolute value `max x (-x)` lies strictly below `⊤` is a real number:
    `⊤` itself fails the bound, and `⊥` fails it through `-⊥ = ⊤`. -/
theorem exists_real_of_abs_lt_top (x : EReal) (h : max x (-x) < ⊤) : ∃ r : ℝ, x = (r : EReal) := by
  induction x using EReal.rec with
  | bot => simp at h
  | coe r => exact ⟨r, rfl⟩
  | top => simp at h

/-- One entry of the comparison `|x| < +∞`, read back: if the ordered `<` of `|x|` against the
    pattern of `+∞` answers 1, then `x` is a real number. -/
theorem exists_real_of_cmp (x : EReal)
    (h : Ideal.cmp .olt (max x (-x)) (Ideal.ofBits .f32 0x7F800000#32) = 1#1) : ∃ r : ℝ, x = (r : EReal) := by
  rw [ofBits_posInf] at h
  refine exists_real_of_abs_lt_top x ?_
  by_contra hn
  simp [Ideal.cmp, hn] at h

/-- The array form of the same fact, at any shape: where the elementwise comparison of `|a|` with the
    broadcast `+∞` is 1, the entry of `a` is real. -/
theorem exists_real_of_cmpf {s : Shape} (hb : Cert.Pre_finite_inputs.S_.BroadcastsInDim s (![] : Fin 0 → Fin s.rank))
    (a : FVec Ideal s .f32) (i : s.Idx)
    (h : cmpf .olt (Host.absf a) (broadcastInDim s ![] hb (constant (F := Ideal) Cert.Pre_finite_inputs.S_ .f32 0x7F800000#32)) i = 1#1) :
    ∃ r : ℝ, a i = (r : EReal) :=
  exists_real_of_cmp (a i) h

/-- The finiteness predicate, read back: if it answers 1 then every entry of its three float
    arguments is a real number. The two conjunctions are split first; each `all` is a reduction by
    `and` into the one-index shape, which is 1 only if every compared entry is 1. -/
theorem fn_eq_one_iff [hPre : Cert.Pre_finite_inputs.Facts]
    (a0 : FVec Ideal Cert.Pre_finite_inputs.S1000000 .f32) (a1 a2 : FVec Ideal Cert.Pre_finite_inputs.S25000000 .f32)
    (i3 i4 : IVec Cert.Pre_finite_inputs.S25000000 32)
    (h : Cert.Pre_finite_inputs.fn (F := Ideal) a0 a1 a2 i3 i4 = (fun _ => 1#1)) :
    (∀ i, ∃ r : ℝ, a0 i = (r : EReal)) ∧ (∀ i, ∃ r : ℝ, a1 i = (r : EReal)) ∧ (∀ i, ∃ r : ℝ, a2 i = (r : EReal)) := by
  have h0 := congrFun h (fun d => d.elim0 : Cert.Pre_finite_inputs.S_.Idx)
  dsimp only [Cert.Pre_finite_inputs.fn, andi] at h0
  obtain ⟨h01, h2⟩ := IntOp.andi_eq_one.1 h0
  obtain ⟨h0', h1⟩ := IntOp.andi_eq_one.1 h01
  refine ⟨fun i => ?_, fun i => ?_, fun i => ?_⟩
  · exact exists_real_of_cmpf _ a0 i (Host.reduce_andi_all _ _ _ _ _ h0' i)
  · exact exists_real_of_cmpf _ a1 i (Host.reduce_andi_all _ _ _ _ _ h1 i)
  · exact exists_real_of_cmpf _ a2 i (Host.reduce_andi_all _ _ _ _ _ h2 i)

/-- The precondition of the idealized kernel gives, on every device, that all three float argument
    arrays hold real numbers only. -/
theorem real_of_pre [hPre : Cert.Pre_finite_inputs.Facts]
    (m : (ℓ : Loc Cert.KernelIdeal.nD Cert.KernelIdeal.τ Cert.KernelIdeal.sig) → Buf (Elt Ideal) ℓ)
    (h : Cert.Pre_KernelIdeal (hPre_finite_inputs := hPre) m) (c : Dev Cert.KernelIdeal.nD) :
      (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) :=
  fn_eq_one_iff _ _ _ _ _ (h c)

end Cert.KernelIdeal.Finite

end
-- ==== Proof.lean ====
/-
  Segment softmax over edges, grouped by user and by item: a kernel that multiplies by reciprocals against a
  reference that divides.

  Both programs exponentiate three weight arrays (per user w0, per edge w1 and w2), sum the per-edge exponentials
  into per-user and per-item tables by scatter-add (the per-user table also takes the user's own exponential), and
  normalise: exp w0 / sumU, exp w1 / sumU[user], exp w2 / sumI[item]. The kernel runs its pointwise passes as four
  pipelined regions over padded [R, 128] tilings of the flat arrays, accumulates the per-user table as
  exp w0 + (scatter-add into zeros), and multiplies by 1 / sum where the reference divides.

  At the extended reals the tilings cancel, the two ways of accumulating agree (addition is an associative,
  commutative monoid there), and x · (1 / y) = x / y holds whenever x ≠ 0 — which is where the precondition
  enters: a finite input is a real number and its exponential is positive. The word-level kernel and its
  idealization are one text (the ideal pass rewrote nothing), so `preserves` is trivial.

  The frames of the two kernel programs are the generated ones; the reference's frame is its generated run with
  the results dropped. The algebraic claim puts three runs side by side: the kernel's run with every buffer named,
  each result buffer walked back through the program's segments to a closed term of the arguments, that term
  shown equal to the reference's, and the reference's generated run with its arguments rewritten by the agreement
  of the two memories.
-/
import proofs.«153787_j71236327572121_2_alg».proof.Defs
import proofs.«153787_j71236327572121_2_alg».proof.Proof.Gen.Kernel
import proofs.«153787_j71236327572121_2_alg».proof.Proof.Gen.Kernel.Skeleton
import proofs.«153787_j71236327572121_2_alg».proof.Proof.Gen.Kernel.Launch
import proofs.«153787_j71236327572121_2_alg».proof.Proof.Gen.Kernel.Points
import proofs.«153787_j71236327572121_2_alg».proof.Proof.Gen.Kernel.Frame
import proofs.«153787_j71236327572121_2_alg».proof.Proof.Gen.KernelIdeal
import proofs.«153787_j71236327572121_2_alg».proof.Proof.Gen.KernelIdeal.Skeleton
import proofs.«153787_j71236327572121_2_alg».proof.Proof.Gen.KernelIdeal.Launch
import proofs.«153787_j71236327572121_2_alg».proof.Proof.Gen.KernelIdeal.Points
import proofs.«153787_j71236327572121_2_alg».proof.Proof.Gen.KernelIdeal.Frame
import proofs.«153787_j71236327572121_2_alg».proof.Proof.Gen.ReferenceIdeal
import proofs.«153787_j71236327572121_2_alg».proof.Proof.Gen.Pre_finite_inputs
import proofs.«153787_j71236327572121_2_alg».proof.Proof.Gen.ReferenceIdeal.Run
import proofs.«153787_j71236327572121_2_alg».proof.Proof.KernelRun
import proofs.«153787_j71236327572121_2_alg».proof.Proof.Bridge
import proofs.«153787_j71236327572121_2_alg».proof.Proof.FiniteInputs
import Idealize.ShloMosaic.Adequacy
import Idealize.ShloMosaic.Init

set_option maxRecDepth 16384

noncomputable section

namespace Cert.Proof

open Idealize.ShloMosaic Idealize.SL.Sem

/-- The word-level kernel terminates without a fault and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- From memories that agree on the arguments, with finite float inputs, the two idealized programs end with the
    same three arrays: the reference's quotients, as functions of the kernel's own argument arrays. -/
theorem algebraic : Cert.algebraic_KernelIdeal_ReferenceIdeal := by
  intro m ρ m' ρ' hpre hagree
  refine ⟨fun c => Cert.KernelIdeal.Bridge.ref0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    fun c => Cert.KernelIdeal.Bridge.ref1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    fun c => Cert.KernelIdeal.Bridge.ref2 (m ((c.tc : Thread Cert.KernelIdeal.nD Cert.KernelIdeal.τ).loc Cert.KernelIdeal.main_arg2)) (m ((c.tc : Thread Cert.KernelIdeal.nD Cert.KernelIdeal.τ).loc Cert.KernelIdeal.main_arg4)), ?_, ?_⟩
  · -- the kernel: every buffer at the last boundary's contents, the results read back, the arguments as launched
    refine (θ_run Cert.KernelIdeal.defs _ _).mono (fun r h c => ?_) (Cert.KernelIdeal.SegRun.run_buffers (F := Ideal) m ρ)
    obtain ⟨h0, h1, h2⟩ := Cert.KernelIdeal.Finite.real_of_pre m hpre c
    exact ⟨(h c _ (Cert.KernelIdeal.Gen.mem_uc Cert.KernelIdeal.main_v37 (by decide))).trans
        ((Cert.KernelIdeal.SegValue.W21_v37 m ρ c).trans (Cert.KernelIdeal.Bridge.out0_eq _ _ _ h0)),
      (h c _ (Cert.KernelIdeal.Gen.mem_uc Cert.KernelIdeal.main_v52 (by decide))).trans
        ((Cert.KernelIdeal.SegValue.W21_v52 m ρ c).trans (Cert.KernelIdeal.Bridge.out1_eq _ _ _ h1)),
      (h c _ (Cert.KernelIdeal.Gen.mem_uc Cert.KernelIdeal.main_v60 (by decide))).trans
        ((Cert.KernelIdeal.SegValue.W21_v60 m ρ c).trans (Cert.KernelIdeal.Bridge.out2_eq _ _ h2)),
      (h c _ (Cert.KernelIdeal.Gen.mem_uc Cert.KernelIdeal.main_arg0 (by decide))).trans (Cert.KernelIdeal.Gen.W21_main_arg0 m ρ c),
      (h c _ (Cert.KernelIdeal.Gen.mem_uc Cert.KernelIdeal.main_arg1 (by decide))).trans (Cert.KernelIdeal.Gen.W21_main_arg1 m ρ c),
      (h c _ (Cert.KernelIdeal.Gen.mem_uc Cert.KernelIdeal.main_arg2 (by decide))).trans (Cert.KernelIdeal.Gen.W21_main_arg2 m ρ c),
      (h c _ (Cert.KernelIdeal.Gen.mem_uc Cert.KernelIdeal.main_arg3 (by decide))).trans (Cert.KernelIdeal.Gen.W21_main_arg3 m ρ c),
      (h c _ (Cert.KernelIdeal.Gen.mem_uc Cert.KernelIdeal.main_arg4 (by decide))).trans (Cert.KernelIdeal.Gen.W21_main_arg4 m ρ c)⟩
  · -- the reference: its run's three terms, the arguments rewritten by the agreement
    refine (θ_run Cert.ReferenceIdeal.defs _ _).mono (fun r h c => ?_) (Cert.ReferenceIdeal.Value.run (F := Ideal) m' ρ')
    obtain ⟨e0, e1, e2, e3, e4⟩ := hagree c
    obtain ⟨r0, r1, r2, kept⟩ := h c
    refine ⟨r0.trans ?_, r1.trans ?_, r2.trans ?_, kept⟩
    · rw [e0, e1, e3]; rfl
    · rw [e0, e1, e3]; rfl
    · rw [e2, e4]; rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
